-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S8192 : Shape := ⟨1, ![8192]⟩
abbrev S1 : Shape := ⟨1, ![1]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S8192 : S_.BroadcastsInDim S8192 (![] : Fin 0 → Fin S8192.rank)
  reducesTo_S8192_S_d0 : S8192.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S4096 .f32) (main_arg1 : FVec F S8192 .f32) (main_arg2 : IVec S4096 32) (main_arg3 : FVec F S4096 .f32) (main_arg4 : FVec F S1 .f32) : IVec S_ 1 :=
  let main_v0 : FVec F S4096 .f32 := Host.absf main_arg0
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S4096 : Shape := ⟨1, ![4096]⟩
abbrev S8192 : Shape := ⟨1, ![8192]⟩
abbrev S1 : Shape := ⟨1, ![1]⟩
abbrev S_ : Shape := ⟨0, ![]⟩
abbrev S4096x1 : Shape := ⟨2, ![4096, 1]⟩
abbrev S1x8192 : Shape := ⟨2, ![1, 8192]⟩
abbrev S512x1 : Shape := ⟨2, ![512, 1]⟩
abbrev S512x1024 : Shape := ⟨2, ![512, 1024]⟩
abbrev S1x1024 : Shape := ⟨2, ![1, 1024]⟩
abbrev S512 : Shape := ⟨1, ![512]⟩

abbrev nBuf : Space → Nat
  | .hbm => 40
  | .vmem => 6
  | .smem => 0
  | _ => 0

abbrev bufTy : (tb : Table) → Fin (tcTables nBuf tb) → BufTy
  | .hbm, ⟨0, _⟩ => ⟨S4096, .f32⟩
  | .hbm, ⟨1, _⟩ => ⟨S8192, .f32⟩
  | .hbm, ⟨2, _⟩ => ⟨S4096, .i32⟩
  | .hbm, ⟨3, _⟩ => ⟨S4096, .f32⟩
  | .hbm, ⟨4, _⟩ => ⟨S1, .f32⟩
  | .hbm, ⟨5, _⟩ => ⟨S_, .f32⟩
  | .hbm, ⟨6, _⟩ => ⟨S4096x1, .f32⟩
  | .hbm, ⟨7, _⟩ => ⟨S1x8192, .f32⟩
  | .hbm, ⟨8, _⟩ => ⟨S4096x1, .f32⟩
  | .hbm, ⟨9, _⟩ => ⟨S4096, .f32⟩
  | .hbm, ⟨10, _⟩ => ⟨S1, .f32⟩
  | .hbm, ⟨11, _⟩ => ⟨S_, .f32⟩
  | .hbm, ⟨12, _⟩ => ⟨S1, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4096, .f32⟩
  | .hbm, ⟨30, _⟩ => ⟨S4096, .f32⟩
  | .hbm, ⟨31, _⟩ => ⟨S_, .i32⟩
  | .hbm, ⟨32, _⟩ => ⟨S4096, .i32⟩
  | .hbm, ⟨33, _⟩ => ⟨S4096, .i1⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .i32⟩
  | .hbm, ⟨38, _⟩ => ⟨S4096x1, .i32⟩
  | .hbm, ⟨39, _⟩ => ⟨S4096, .f32⟩
  | .local _ .vmem, ⟨0, _⟩ => ⟨S512x1, .f32⟩
  | .local _ .vmem, ⟨1, _⟩ => ⟨S512x1, .f32⟩
  | .local _ .vmem, ⟨2, _⟩ => ⟨S1x8192, .f32⟩
  | .local _ .vmem, ⟨3, _⟩ => ⟨S512x1, .f32⟩
  | .local _ .vmem, ⟨4, _⟩ => ⟨S512x1, .f32⟩
  | .local _ .vmem, ⟨5, _⟩ => ⟨S512x1024, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1_S_ : S1.ShapeCasts S_
  shapeCasts_S4096_S4096x1 : S4096.ShapeCasts S4096x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x8192_S1x1024_0_0 : ∀ a, (![0, 0] : Fin 2 → Nat) a + S1x1024.size a ≤ S1x8192.size a
  h_S1x1024 : 0 < S1x1024.numel
  shapeCasts_S1x1024_S1x1024 : S1x1024.ShapeCasts S1x1024
  broadcasts_S1x1024_S512x1024 : S1x1024.Broadcasts S512x1024
  broadcasts_S512x1_S512x1024 : S512x1.Broadcasts S512x1024
  inb_S1x8192_S1x1024_0_1024 : ∀ a, (![0, 1024] : Fin 2 → Nat) a + S1x1024.size a ≤ S1x8192.size a
  inb_S1x8192_S1x1024_0_2048 : ∀ a, (![0, 2048] : Fin 2 → Nat) a + S1x1024.size a ≤ S1x8192.size a
  inb_S1x8192_S1x1024_0_3072 : ∀ a, (![0, 3072] : Fin 2 → Nat) a + S1x1024.size a ≤ S1x8192.size a
  inb_S1x8192_S1x1024_0_4096 : ∀ a, (![0, 4096] : Fin 2 → Nat) a + S1x1024.size a ≤ S1x8192.size a
  inb_S1x8192_S1x1024_0_5120 : ∀ a, (![0, 5120] : Fin 2 → Nat) a + S1x1024.size a ≤ S1x8192.size a
  inb_S1x8192_S1x1024_0_6144 : ∀ a, (![0, 6144] : Fin 2 → Nat) a + S1x1024.size a ≤ S1x8192.size a
  inb_S1x8192_S1x1024_0_7168 : ∀ a, (![0, 7168] : Fin 2 → Nat) a + S1x1024.size a ≤ S1x8192.size a
  reduces_S512x1024_S512 : S512x1024.Reduces [1] S512
  shapeCasts_S512_S512x1 : S512.ShapeCasts S512x1
  shapeCasts_S4096x1_S4096 : S4096x1.ShapeCasts S4096
  slices_S4096_S1_4095 : S4096.Slices ![4095] S1
  sliceFits_S4096_S1 : S4096.Slices (fun _ => 0) S1
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  scatter_S4096_S4096x1_S4096_n_0_0_1_wf : ScatterDims.WF S4096 S4096x1 S4096 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S4096x1.size a
  hwx0_0 : ∀ i : grid0.Coords, EltTy.bits .f32 = 32 ∨ (Rect.block (s := S4096x1) S512x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .f32 = 32 ∨ (Rect.block (s := S1x8192) S1x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)

variable [Facts₀]

def scatter_S4096_S4096x1_S4096_n_0_0_1 : ScatterDims S4096 S4096x1 S4096 where
  updateWindowDims := []
  insertedWindowDims := [0]
  scatterDimsToOperandDims := [0]
  indexVectorDim := 1
  wf := scatter_S4096_S4096x1_S4096_n_0_0_1_wf

abbrev win0_0 : Pipeline.Window sig grid0 :=
  Pipeline.Window.ofSpec (Memref.whole main_v1) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096 : Shape := ⟨1, ![4096]⟩
abbrev S8192 : Shape := ⟨1, ![8192]⟩
abbrev S1 : Shape := ⟨1, ![1]⟩
abbrev S_ : Shape := ⟨0, ![]⟩
abbrev S1x8192 : Shape := ⟨2, ![1, 8192]⟩
abbrev S4096x1 : Shape := ⟨2, ![4096, 1]⟩
abbrev S4096x8192 : Shape := ⟨2, ![4096, 8192]⟩

abbrev nBuf : Space → Nat
  | .hbm => 49
  | .vmem => 0
  | .smem => 0
  | _ => 0

abbrev bufTy : (tb : Table) → Fin (tcTables nBuf tb) → BufTy
  | .hbm, ⟨0, _⟩ => ⟨S4096, .f32⟩
  | .hbm, ⟨1, _⟩ => ⟨S8192, .f32⟩
  | .hbm, ⟨2, _⟩ => ⟨S4096, .i32⟩
  | .hbm, ⟨3, _⟩ => ⟨S4096, .f32⟩
  | .hbm, ⟨4, _⟩ => ⟨S1, .f32⟩
  | .hbm, ⟨5, _⟩ => ⟨S_, .f32⟩
  | .hbm, ⟨6, _⟩ => ⟨S1x8192, .f32⟩
  | .hbm, ⟨7, _⟩ => ⟨S4096x1, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S_, .f32⟩
  | .hbm, ⟨18, _⟩ => ⟨S4096, .f32⟩
  | .hbm, ⟨19, _⟩ => ⟨S1, .f32⟩
  | .hbm, ⟨20, _⟩ => ⟨S_, .f32⟩
  | .hbm, ⟨21, _⟩ => ⟨S1, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S4096, .f32⟩
  | .hbm, ⟨39, _⟩ => ⟨S4096, .f32⟩
  | .hbm, ⟨40, _⟩ => ⟨S_, .i32⟩
  | .hbm, ⟨41, _⟩ => ⟨S4096, .i32⟩
  | .hbm, ⟨42, _⟩ => ⟨S4096, .i1⟩
  | .hbm, ⟨43, _⟩ => ⟨S_, .i32⟩
  | .hbm, ⟨44, _⟩ => ⟨S4096, .i32⟩
  | .hbm, ⟨45, _⟩ => ⟨S4096, .i32⟩
  | .hbm, ⟨46, _⟩ => ⟨S4096, .i32⟩
  | .hbm, ⟨47, _⟩ => ⟨S4096x1, .i32⟩
  | .hbm, ⟨48, _⟩ => ⟨S4096, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]

class Facts₀ : Prop where
  shapeCasts_S1_S_ : S1.ShapeCasts S_
  bcast_S8192_S1x8192_1 : S8192.BroadcastsInDim S1x8192 (![1] : Fin 1 → Fin S1x8192.rank)
  bcast_S4096_S4096x1_0 : S4096.BroadcastsInDim S4096x1 (![0] : Fin 1 → Fin S4096x1.rank)
  bcast_S1x8192_S4096x8192_0_1 : S1x8192.BroadcastsInDim S4096x8192 (![0, 1] : Fin 2 → Fin S4096x8192.rank)
  bcast_S4096x1_S4096x8192_0_1 : S4096x1.BroadcastsInDim S4096x8192 (![0, 1] : Fin 2 → Fin S4096x8192.rank)
  bcast_S_S4096x8192 : S_.BroadcastsInDim S4096x8192 (![] : Fin 0 → Fin S4096x8192.rank)
  reducesTo_S4096x8192_S4096_d1 : S4096x8192.ReducesTo [1] S4096
  h_S_ : 0 < S_.numel
  slices_S4096_S1_4095 : S4096.Slices ![4095] S1
  sliceFits_S4096_S1 : S4096.Slices (fun _ => 0) S1
  bcast_S_S4096 : S_.BroadcastsInDim S4096 (![] : Fin 0 → Fin S4096.rank)
  scatter_S4096_S4096x1_S4096_n_0_0_1_wf : ScatterDims.WF S4096 S4096x1 S4096 [] [0] [0] 1

variable [Facts₀]

def scatter_S4096_S4096x1_S4096_n_0_0_1 : ScatterDims S4096 S4096x1 S4096 where
  updateWindowDims := []
  insertedWindowDims := [0]
  scatterDimsToOperandDims := [0]
  indexVectorDim := 1
  wf := scatter_S4096_S4096x1_S4096_n_0_0_1_wf

class Facts : Prop extends Facts₀ where

variable [Facts]
-- ==== Proof.KernelRun.lean ====
/-
  The kernel body run once, on any whole buffers.

  The body reads a 512x1 block `x0` of the positives and the whole 1x8192 row `x1` of the negatives. It clears a 512x1024
  accumulator, then eight times adds to it max(chunk - x0 + 0.1, 0), where chunk is the next 1024 entries of the row spread
  down the 512 rows and x0 is spread along the 1024 columns, and at the end stores the accumulator's row sums into the 512x1
  output block. Every store goes through the whole rectangle of its buffer.

  Run symbolically it ends with the two inputs as they were, the output block overwritten by ONE store and the accumulator
  overwritten by NINE. What the stores hold is found by the run itself (each stored value a named word over the values read
  before it), so nothing the body computes is restated here; what the accumulator held before the run is never used.
-/
import proofs.«179679_j68685116998321_2_alg».proof.Proof.Gen.Kernel.Launch
import proofs.«179679_j68685116998321_2_alg».proof.Proof.Gen.Kernel.Skeleton
import proofs.«179679_j68685116998321_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator: the kernel's one scratch operand, a whole buffer of its own. -/
abbrev scM0_0 : Memref sig .tc .vmem S512x1024 .f32 := Memref.whole cc0_scratch0

/-- What the region's invariant holds besides the windows: the accumulator at some contents and the generator register at
    some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1000000 in
/-- The pieces the body's stores leave in the output block (`L2`) and in the accumulator (`LS0`), last store first, with the
    proof that from the inputs at `x0`, `x1` and the two written buffers at anything the body runs to its end holding the
    inputs unchanged and the written buffers at those pieces written over what they held. -/
noncomputable def kernelRun0 (c : Dev nD) (i : grid0.Coords) (arg1 : Memref sig .tc .vmem S512x1 .f32) (harg1 : arg1.IsWhole) (arg2 : Memref sig .tc .vmem S1x8192 .f32) (harg2 : arg2.IsWhole) (arg3 : Memref sig .tc .vmem S512x1 .f32) (harg3 : arg3.IsWhole) (arg4 : Memref sig .tc .vmem S512x1024 .f32) (harg4 : arg4.IsWhole)
    (x0 : Vec F S512x1 .f32) (x1 : Vec F S1x8192 .f32) :
    Σ' (L2 : List (View.Piece (Elt F) S512x1 .f32)), { LS0 : List (View.Piece (Elt F) S512x1024 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)) -∗ K ⟨⟩))
          ⊢ wp frame (wpE (defs₀ (F := F)) Variants.none c none) E (cc0__q_kernel i arg1 harg1 arg2 harg2 arg3 harg3 arg4 harg4) K } := by
  refine ⟨?_, ?_, fun E K => ?run⟩
  case run =>
    simp only [cc0__q_kernel_eq_skeleton]; unfold cc0__q_kernel_skel
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact HS0

end Cert.Kernel.Hand

end
-- ==== Proof.KernelFrame.lean ====
/-
  The frame of the program: it runs to its end, faults nowhere and leaves its five argument arrays as they were.

  The program is three reshapes, one pipelined region over eight grid points, and thirty-one host operations on the
  region's result. At each point the region stages a 512x1 block of the positives (a new one every point), the whole row
  of negatives (fetched once, at the first point, and found in place afterwards), runs the body, and writes the 512x1
  output block back. The body's only state is its accumulator, which it clears before using: so the region's invariant is
  just "the accumulator holds something", the same at every point, and what each point writes back is a function of that
  point's two input blocks alone. No host operation writes an argument array or an array of the region; hence the frame.
-/
import proofs.«179679_j68685116998321_2_alg».proof.Proof.KernelRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffers' contents when the region is entered: the launch contents after the three reshapes. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is its first three operations, the region, and the thirty-one operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the region's arrays and buffers the region never sees. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is none of the region's three arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, Finset.mem_singleton] <;> exact StableHlo.devRef_ne_of_ne (by decide)

/-! ## The argument arrays: written by no operation, before the region or after it -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's staging buffer holds its block at every point, whether it was fetched there or found in place: the body leaves
    it as it was, and where it is not fetched its block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- A run ending with every buffer outside the region's arrays at what the operations after the region leave ends with the
    five argument arrays as launched: none of them is an array of the region, and nothing writes them. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c)⟩) h

/-! ## What a point leaves in the output block -/

/-- The output block after the body, from the point's two input blocks: the body's one store into it, read back. -/
def out0_2 (c : Dev nD) (i : grid0.Coords) (arg1 : Memref sig .tc .vmem S512x1 .f32) (harg1 : arg1.IsWhole) (arg2 : Memref sig .tc .vmem S1x8192 .f32) (harg2 : arg2.IsWhole) (arg3 : Memref sig .tc .vmem S512x1 .f32) (harg3 : arg3.IsWhole) (arg4 : Memref sig .tc .vmem S512x1024 .f32) (harg4 : arg4.IsWhole)
    (x0 : Vec F S512x1 .f32) (x1 : Vec F S1x8192 .f32) : Vec F S512x1 .f32 :=
  View.canon (kernelRun0 c i arg1 harg1 arg2 harg2 arg3 harg3 arg4 harg4 x0 x1).1

/-- That store goes through the block's whole rectangle, so it covers the block. -/
theorem cover0_2 (c : Dev nD) (i : grid0.Coords) (arg1 : Memref sig .tc .vmem S512x1 .f32) (harg1 : arg1.IsWhole) (arg2 : Memref sig .tc .vmem S1x8192 .f32) (harg2 : arg2.IsWhole) (arg3 : Memref sig .tc .vmem S512x1 .f32) (harg3 : arg3.IsWhole) (arg4 : Memref sig .tc .vmem S512x1024 .f32) (harg4 : arg4.IsWhole)
    (x0 : Vec F S512x1 .f32) (x1 : Vec F S1x8192 .f32) (y : S512x1.Idx) :
    ∃ pc ∈ (kernelRun0 c i arg1 harg1 arg2 harg2 arg3 harg3 arg4 harg4 x0 x1).1, y ∈ pc.1.set :=
  View.cover_of_tiledL (kernelRun0 c i arg1 harg1 arg2 harg2 arg3 harg3 arg4 harg4 x0 x1).1 S512x1.size (by sl_kernel_rfl) y

/-! ## The region's proof data -/

/-- On core `c`: the arrays as the region finds them; after the body at point `t` each input's buffer at its block and the
    output's at `out0_2` of the two input blocks; the invariant "the accumulator and the generator register hold something" at
    every point; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) scM0_0 (Memref.isWhole_whole _) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t
    = out0_2 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) scM0_0 (Memref.isWhole_whole _) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The inputs' buffers hold their blocks, the invariant lends the accumulator at whatever it holds, so the run applies; the
    accumulator goes back into the invariant at whatever the run left in it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨HS0, Hg⟩, Ho, ⟨%d0, H0⟩, ⟨%d1, H1⟩, ⟨%d2, H2⟩⟩
  iapply ((kernelRun0 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) scM0_0 (Memref.isWhole_whole _) (iblk m c 0 t) (iblk m c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  unfold owns out0_2; iexists _; isplitr
  swap; · iexact H2
  ipureintro
  exact View.read_writes_eq_canon _ _ _ (cover0_2 _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and at the end each array of the
    region holds what the write-backs computed and every other buffer what the operations after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.Kernel.Hand

end
-- ==== Proof.KernelIdealRun.lean ====
/-
  The kernel body run once, on any whole buffers.

  The body reads a 512x1 block `x0` of the positives and the whole 1x8192 row `x1` of the negatives. It clears a 512x1024
  accumulator, then eight times adds to it max(chunk - x0 + 0.1, 0), where chunk is the next 1024 entries of the row spread
  down the 512 rows and x0 is spread along the 1024 columns, and at the end stores the accumulator's row sums into the 512x1
  output block. Every store goes through the whole rectangle of its buffer.

  Run symbolically it ends with the two inputs as they were, the output block overwritten by ONE store and the accumulator
  overwritten by NINE. What the stores hold is found by the run itself (each stored value a named word over the values read
  before it), so nothing the body computes is restated here; what the accumulator held before the run is never used.
-/
import proofs.«179679_j68685116998321_2_alg».proof.Proof.Gen.KernelIdeal.Launch
import proofs.«179679_j68685116998321_2_alg».proof.Proof.Gen.KernelIdeal.Skeleton
import proofs.«179679_j68685116998321_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator: the kernel's one scratch operand, a whole buffer of its own. -/
abbrev scM0_0 : Memref sig .tc .vmem S512x1024 .f32 := Memref.whole cc0_scratch0

/-- What the region's invariant holds besides the windows: the accumulator at some contents and the generator register at
    some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1000000 in
/-- The pieces the body's stores leave in the output block (`L2`) and in the accumulator (`LS0`), last store first, with the
    proof that from the inputs at `x0`, `x1` and the two written buffers at anything the body runs to its end holding the
    inputs unchanged and the written buffers at those pieces written over what they held. -/
noncomputable def kernelRun0 (c : Dev nD) (i : grid0.Coords) (arg1 : Memref sig .tc .vmem S512x1 .f32) (harg1 : arg1.IsWhole) (arg2 : Memref sig .tc .vmem S1x8192 .f32) (harg2 : arg2.IsWhole) (arg3 : Memref sig .tc .vmem S512x1 .f32) (harg3 : arg3.IsWhole) (arg4 : Memref sig .tc .vmem S512x1024 .f32) (harg4 : arg4.IsWhole)
    (x0 : Vec F S512x1 .f32) (x1 : Vec F S1x8192 .f32) :
    Σ' (L2 : List (View.Piece (Elt F) S512x1 .f32)), { LS0 : List (View.Piece (Elt F) S512x1024 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1
                ∗ (∃ f, arg3.view.loc (c : Thread nD τ) ↦[arg3.view.set]{fullShare} arg3.view.writes (Elt F) f L2)
                ∗ (∃ f, arg4.view.loc (c : Thread nD τ) ↦[arg4.view.set]{fullShare} arg4.view.writes (Elt F) f LS0)) -∗ K ⟨⟩))
          ⊢ wp frame (wpE (defs₀ (F := F)) Variants.none c none) E (cc0__q_kernel i arg1 harg1 arg2 harg2 arg3 harg3 arg4 harg4) K } := by
  refine ⟨?_, ?_, fun E K => ?run⟩
  case run =>
    simp only [cc0__q_kernel_eq_skeleton]; unfold cc0__q_kernel_skel
    unfold owns
    iintro ⟨⟨%f0, %hf0, H0⟩, ⟨%f1, %hf1, H1⟩, ⟨%d2, %f2, -, H2⟩, ⟨%ds0, %fs0, -, HS0⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexact H2
    iexists _; iexact HS0

end Cert.KernelIdeal.Hand

end
-- ==== Proof.KernelIdealFrame.lean ====
/-
  The frame of the program: it runs to its end, faults nowhere and leaves its five argument arrays as they were.

  The program is three reshapes, one pipelined region over eight grid points, and thirty-one host operations on the
  region's result. At each point the region stages a 512x1 block of the positives (a new one every point), the whole row
  of negatives (fetched once, at the first point, and found in place afterwards), runs the body, and writes the 512x1
  output block back. The body's only state is its accumulator, which it clears before using: so the region's invariant is
  just "the accumulator holds something", the same at every point, and what each point writes back is a function of that
  point's two input blocks alone. No host operation writes an argument array or an array of the region; hence the frame.
-/
import proofs.«179679_j68685116998321_2_alg».proof.Proof.KernelIdealRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffers' contents when the region is entered: the launch contents after the three reshapes. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is its first three operations, the region, and the thirty-one operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operations after the region touch only the region's arrays and buffers the region never sees. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result, which is none of the region's three arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, Finset.mem_singleton] <;> exact StableHlo.devRef_ne_of_ne (by decide)

/-! ## The argument arrays: written by no operation, before the region or after it -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
    repeat' apply And.intro
    all_goals exact StableHlo.devRef_ne_of_ne (by decide)))

theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's staging buffer holds its block at every point, whether it was fetched there or found in place: the body leaves
    it as it was, and where it is not fetched its block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- A run ending with every buffer outside the region's arrays at what the operations after the region leave ends with the
    five argument arrays as launched: none of them is an array of the region, and nothing writes them. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c)⟩) h

/-! ## What a point leaves in the output block -/

/-- The output block after the body, from the point's two input blocks: the body's one store into it, read back. -/
def out0_2 (c : Dev nD) (i : grid0.Coords) (arg1 : Memref sig .tc .vmem S512x1 .f32) (harg1 : arg1.IsWhole) (arg2 : Memref sig .tc .vmem S1x8192 .f32) (harg2 : arg2.IsWhole) (arg3 : Memref sig .tc .vmem S512x1 .f32) (harg3 : arg3.IsWhole) (arg4 : Memref sig .tc .vmem S512x1024 .f32) (harg4 : arg4.IsWhole)
    (x0 : Vec F S512x1 .f32) (x1 : Vec F S1x8192 .f32) : Vec F S512x1 .f32 :=
  View.canon (kernelRun0 c i arg1 harg1 arg2 harg2 arg3 harg3 arg4 harg4 x0 x1).1

/-- That store goes through the block's whole rectangle, so it covers the block. -/
theorem cover0_2 (c : Dev nD) (i : grid0.Coords) (arg1 : Memref sig .tc .vmem S512x1 .f32) (harg1 : arg1.IsWhole) (arg2 : Memref sig .tc .vmem S1x8192 .f32) (harg2 : arg2.IsWhole) (arg3 : Memref sig .tc .vmem S512x1 .f32) (harg3 : arg3.IsWhole) (arg4 : Memref sig .tc .vmem S512x1024 .f32) (harg4 : arg4.IsWhole)
    (x0 : Vec F S512x1 .f32) (x1 : Vec F S1x8192 .f32) (y : S512x1.Idx) :
    ∃ pc ∈ (kernelRun0 c i arg1 harg1 arg2 harg2 arg3 harg3 arg4 harg4 x0 x1).1, y ∈ pc.1.set :=
  View.cover_of_tiledL (kernelRun0 c i arg1 harg1 arg2 harg2 arg3 harg3 arg4 harg4 x0 x1).1 S512x1.size (by sl_kernel_rfl) y

/-! ## The region's proof data -/

/-- On core `c`: the arrays as the region finds them; after the body at point `t` each input's buffer at its block and the
    output's at `out0_2` of the two input blocks; the invariant "the accumulator and the generator register hold something" at
    every point; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) scM0_0 (Memref.isWhole_whole _) (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t
    = out0_2 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) scM0_0 (Memref.isWhole_whole _) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at a point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The inputs' buffers hold their blocks, the invariant lends the accumulator at whatever it holds, so the run applies; the
    accumulator goes back into the invariant at whatever the run left in it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  iintro ⟨⟨HS0, Hg⟩, Ho, ⟨%d0, H0⟩, ⟨%d1, H1⟩, ⟨%d2, H2⟩⟩
  iapply ((kernelRun0 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) scM0_0 (Memref.isWhole_whole _) (iblk m c 0 t) (iblk m c 1 t)).2.2 Set.univ _)
  isplitl [H0]; · iexact H0
  isplitl [H1]; · iexact H1
  isplitl [H2]; · iexists _; iexact H2
  isplitl [HS0]; · iexact HS0
  iintro ⟨H0, H1, ⟨%e2, H2⟩, ⟨%es0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  unfold owns out0_2; iexists _; isplitr
  swap; · iexact H2
  ipureintro
  exact View.read_writes_eq_canon _ _ _ (cover0_2 _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and at the end each array of the
    region holds what the write-backs computed and every other buffer what the operations after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame, at any reading of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (run_main m ρ)

end Cert.KernelIdeal.Hand

end
-- ==== Proof.LibReadBack.lean ====
/-
  A buffer read back after stores.

  When the last store to a buffer went through the rectangle of the buffer's whole shape, a load through that rectangle reads
  that store's payload, whatever was stored before: an accumulator kept in a buffer and rewritten whole at every step reads
  back, at each step, exactly what the previous step stored. (The library states this for a single store; this is the form
  for a store that follows others.) Library imports only.
-/
import Idealize.ShloMosaic.Lib.Pipeline.Value

noncomputable section

namespace Cert.LibReadBack

open Idealize.ShloMosaic

/-- A load through the whole-shape rectangle of what a LAST store through it left reads that store's payload, whatever the
    earlier stores were. -/
theorem readCov_cons_unit_zero {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

end Cert.LibReadBack

end
-- ==== Proof.KernelIdealWords.lean ====
/-
  The accumulator, step by step.

  The body keeps its running sum in one buffer and rewrites the whole buffer at every step, so each time it reads the buffer
  back it reads exactly what the step before stored. Unwinding that eight times gives the accumulator as an explicit
  eight-fold expression in the two input blocks: start from zero; at step k add max(chunk_k - x0 + 0.1, 0), chunk_k the k-th
  run of 1024 entries of the row. The output block is the row sums of the last accumulator.
-/
import proofs.«179679_j68685116998321_2_alg».proof.Proof.KernelIdealFrame
import proofs.«179679_j68685116998321_2_alg».proof.Proof.LibReadBack

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := by funext a; fin_cases a <;> rfl

/-- The accumulator before the first chunk: all zeros. -/
def acc0 : Vec F S512x1024 .f32 := k0_pay4
/-- After chunk 0 (entries 0..1023 of the row). -/
def acc1 (x0 : Vec F S512x1 .f32) (x1 : Vec F S1x8192 .f32) : Vec F S512x1024 .f32 :=
  k0_pay5 x0 (View.ld x1 (Rect.unit (s := S1x8192) ![0, 0] S1x1024.size inb_S1x8192_S1x1024_0_0)) acc0
/-- After chunk 1. -/
def acc2 (x0 : Vec F S512x1 .f32) (x1 : Vec F S1x8192 .f32) : Vec F S512x1024 .f32 :=
  k0_pay6 x0 (View.ld x1 (Rect.unit (s := S1x8192) ![0, 1024] S1x1024.size inb_S1x8192_S1x1024_0_1024)) (acc1 x0 x1)
/-- After chunk 2. -/
def acc3 (x0 : Vec F S512x1 .f32) (x1 : Vec F S1x8192 .f32) : Vec F S512x1024 .f32 :=
  k0_pay7 (k0_pay3 x0) (View.ld x1 (Rect.unit (s := S1x8192) ![0, 2048] S1x1024.size inb_S1x8192_S1x1024_0_2048)) (acc2 x0 x1)
/-- After chunk 3. -/
def acc4 (x0 : Vec F S512x1 .f32) (x1 : Vec F S1x8192 .f32) : Vec F S512x1024 .f32 :=
  k0_pay8 (k0_pay3 x0) (View.ld x1 (Rect.unit (s := S1x8192) ![0, 3072] S1x1024.size inb_S1x8192_S1x1024_0_3072)) (acc3 x0 x1)
/-- After chunk 4. -/
def acc5 (x0 : Vec F S512x1 .f32) (x1 : Vec F S1x8192 .f32) : Vec F S512x1024 .f32 :=
  k0_pay10 (k0_pay9 (k0_pay3 x0) (View.ld x1 (Rect.unit (s := S1x8192) ![0, 4096] S1x1024.size inb_S1x8192_S1x1024_0_4096))) (acc4 x0 x1)
/-- After chunk 5. -/
def acc6 (x0 : Vec F S512x1 .f32) (x1 : Vec F S1x8192 .f32) : Vec F S512x1024 .f32 :=
  k0_pay11 (k0_pay3 x0) (View.ld x1 (Rect.unit (s := S1x8192) ![0, 5120] S1x1024.size inb_S1x8192_S1x1024_0_5120)) (acc5 x0 x1)
/-- After chunk 6. -/
def acc7 (x0 : Vec F S512x1 .f32) (x1 : Vec F S1x8192 .f32) : Vec F S512x1024 .f32 :=
  k0_pay12 (k0_pay3 x0) (View.ld x1 (Rect.unit (s := S1x8192) ![0, 6144] S1x1024.size inb_S1x8192_S1x1024_0_6144)) (acc6 x0 x1)
/-- After chunk 7: the accumulator whose rows are summed. -/
def acc8 (x0 : Vec F S512x1 .f32) (x1 : Vec F S1x8192 .f32) : Vec F S512x1024 .f32 :=
  k0_pay1 (k0_pay13 (View.ld x1 (Rect.unit (s := S1x8192) ![0, 7168] S1x1024.size inb_S1x8192_S1x1024_0_7168))) (k0_pay14 (k0_pay3 x0)) (acc7 x0 x1)

/-! ## The values the run carries between its parts -/

theorem w_r (c : Dev nD) (arg1 : Memref sig .tc .vmem S512x1 .f32) (harg1 : arg1.IsWhole) (x0 : Vec F S512x1 .f32) :
    kernelRun0.sl.r c arg1 harg1 x0 = k0_pay3 x0 := by
  unfold kernelRun0.sl.r
  simp only [View.readAt_eq_ld, harg1.read_unread, View.ld_unit_zero (S := S512x1) hz]
theorem w_r1 (c : Dev nD) (arg1 : Memref sig .tc .vmem S512x1 .f32) (harg1 : arg1.IsWhole) (arg2 : Memref sig .tc .vmem S1x8192 .f32) (harg2 : arg2.IsWhole)
    (x0 : Vec F S512x1 .f32) (x1 : Vec F S1x8192 .f32) :
    kernelRun0.sl.r_1 c arg1 harg1 arg2 harg2 x0 x1 = k0_pay9 (k0_pay3 x0) (View.ld x1 (Rect.unit (s := S1x8192) ![0, 4096] S1x1024.size inb_S1x8192_S1x1024_0_4096)) := by
  unfold kernelRun0.sl.r_1
  simp only [w_r, View.readAt_eq_ld, harg2.read_unread]
theorem w_r2 (c : Dev nD) (arg2 : Memref sig .tc .vmem S1x8192 .f32) (harg2 : arg2.IsWhole) (x1 : Vec F S1x8192 .f32) :
    kernelRun0.sl.r_2 c arg2 harg2 x1 = k0_pay13 (View.ld x1 (Rect.unit (s := S1x8192) ![0, 7168] S1x1024.size inb_S1x8192_S1x1024_0_7168)) := by
  unfold kernelRun0.sl.r_2
  simp only [View.readAt_eq_ld, harg2.read_unread]
theorem w_r3 (c : Dev nD) (arg1 : Memref sig .tc .vmem S512x1 .f32) (harg1 : arg1.IsWhole) (x0 : Vec F S512x1 .f32) :
    kernelRun0.sl.r_3 c arg1 harg1 x0 = k0_pay14 (k0_pay3 x0) := by
  unfold kernelRun0.sl.r_3
  rw [w_r]

/-! ## Each read of the accumulator is what the step before stored -/

theorem w_v15 (c : Dev nD) (arg4 : Memref sig .tc .vmem S512x1024 .f32) : kernelRun0.sl.v15 (F := F) c arg4 = acc0 := by
  unfold kernelRun0.sl.v15 kernelRun0.sl.HS0_1
  exact Cert.LibReadBack.readCov_cons_unit_zero _ hz _ _ _
theorem w_v29 (c : Dev nD) (arg1 : Memref sig .tc .vmem S512x1 .f32) (harg1 : arg1.IsWhole) (arg2 : Memref sig .tc .vmem S1x8192 .f32) (harg2 : arg2.IsWhole) (arg4 : Memref sig .tc .vmem S512x1024 .f32) (x0 : Vec F S512x1 .f32) (x1 : Vec F S1x8192 .f32) :
    kernelRun0.sl.v29 c arg1 harg1 arg2 harg2 arg4 x0 x1 = acc1 x0 x1 := by
  unfold kernelRun0.sl.v29 kernelRun0.sl.HS0_2
  rw [Cert.LibReadBack.readCov_cons_unit_zero _ hz, w_v15]
  simp only [View.readAt_eq_ld, harg1.read_unread, harg2.read_unread, View.ld_unit_zero (S := S512x1) hz]
  rfl
theorem w_v43 (c : Dev nD) (arg1 : Memref sig .tc .vmem S512x1 .f32) (harg1 : arg1.IsWhole) (arg2 : Memref sig .tc .vmem S1x8192 .f32) (harg2 : arg2.IsWhole) (arg4 : Memref sig .tc .vmem S512x1024 .f32) (x0 : Vec F S512x1 .f32) (x1 : Vec F S1x8192 .f32) :
    kernelRun0.sl.v43 c arg1 harg1 arg2 harg2 arg4 x0 x1 = acc2 x0 x1 := by
  unfold kernelRun0.sl.v43 kernelRun0.sl.HS0_3
  rw [Cert.LibReadBack.readCov_cons_unit_zero _ hz, w_v29]
  simp only [w_r, w_r1, w_r2, w_r3, View.readAt_eq_ld, harg1.read_unread, harg2.read_unread, View.ld_unit_zero (S := S512x1) hz]
  rfl

theorem w_v57 (c : Dev nD) (arg1 : Memref sig .tc .vmem S512x1 .f32) (harg1 : arg1.IsWhole) (arg2 : Memref sig .tc .vmem S1x8192 .f32) (harg2 : arg2.IsWhole) (arg4 : Memref sig .tc .vmem S512x1024 .f32) (x0 : Vec F S512x1 .f32) (x1 : Vec F S1x8192 .f32) :
    kernelRun0.sl.v57 c arg1 harg1 arg2 harg2 arg4 x0 x1 = acc3 x0 x1 := by
  unfold kernelRun0.sl.v57 kernelRun0.sl.HS0_4
  rw [Cert.LibReadBack.readCov_cons_unit_zero _ hz, w_v43]
  simp only [w_r, w_r1, w_r2, w_r3, View.readAt_eq_ld, harg1.read_unread, harg2.read_unread, View.ld_unit_zero (S := S512x1) hz]
  rfl

theorem w_v71 (c : Dev nD) (arg1 : Memref sig .tc .vmem S512x1 .f32) (harg1 : arg1.IsWhole) (arg2 : Memref sig .tc .vmem S1x8192 .f32) (harg2 : arg2.IsWhole) (arg4 : Memref sig .tc .vmem S512x1024 .f32) (x0 : Vec F S512x1 .f32) (x1 : Vec F S1x8192 .f32) :
    kernelRun0.sl.v71 c arg1 harg1 arg2 harg2 arg4 x0 x1 = acc4 x0 x1 := by
  unfold kernelRun0.sl.v71 kernelRun0.sl.HS0_5
  rw [Cert.LibReadBack.readCov_cons_unit_zero _ hz, w_v57]
  simp only [w_r, w_r1, w_r2, w_r3, View.readAt_eq_ld, harg1.read_unread, harg2.read_unread, View.ld_unit_zero (S := S512x1) hz]
  rfl

theorem w_v85 (c : Dev nD) (arg1 : Memref sig .tc .vmem S512x1 .f32) (harg1 : arg1.IsWhole) (arg2 : Memref sig .tc .vmem S1x8192 .f32) (harg2 : arg2.IsWhole) (arg4 : Memref sig .tc .vmem S512x1024 .f32) (x0 : Vec F S512x1 .f32) (x1 : Vec F S1x8192 .f32) :
    kernelRun0.sl.v85 c arg1 harg1 arg2 harg2 arg4 x0 x1 = acc5 x0 x1 := by
  unfold kernelRun0.sl.v85 kernelRun0.sl.HS0_6
  rw [Cert.LibReadBack.readCov_cons_unit_zero _ hz, w_v71]
  simp only [w_r, w_r1, w_r2, w_r3, View.readAt_eq_ld, harg1.read_unread, harg2.read_unread, View.ld_unit_zero (S := S512x1) hz]
  rfl

theorem w_v99 (c : Dev nD) (arg1 : Memref sig .tc .vmem S512x1 .f32) (harg1 : arg1.IsWhole) (arg2 : Memref sig .tc .vmem S1x8192 .f32) (harg2 : arg2.IsWhole) (arg4 : Memref sig .tc .vmem S512x1024 .f32) (x0 : Vec F S512x1 .f32) (x1 : Vec F S1x8192 .f32) :
    kernelRun0.sl.v99 c arg1 harg1 arg2 harg2 arg4 x0 x1 = acc6 x0 x1 := by
  unfold kernelRun0.sl.v99 kernelRun0.sl.HS0_7
  rw [Cert.LibReadBack.readCov_cons_unit_zero _ hz, w_v85]
  simp only [w_r, w_r1, w_r2, w_r3, View.readAt_eq_ld, harg1.read_unread, harg2.read_unread, View.ld_unit_zero (S := S512x1) hz]
  rfl

theorem w_v113 (c : Dev nD) (arg1 : Memref sig .tc .vmem S512x1 .f32) (harg1 : arg1.IsWhole) (arg2 : Memref sig .tc .vmem S1x8192 .f32) (harg2 : arg2.IsWhole) (arg4 : Memref sig .tc .vmem S512x1024 .f32) (x0 : Vec F S512x1 .f32) (x1 : Vec F S1x8192 .f32) :
    kernelRun0.sl.v113 c arg1 harg1 arg2 harg2 arg4 x0 x1 = acc7 x0 x1 := by
  unfold kernelRun0.sl.v113 kernelRun0.sl.HS0_8
  rw [Cert.LibReadBack.readCov_cons_unit_zero _ hz, w_v99]
  simp only [w_r, w_r1, w_r2, w_r3, View.readAt_eq_ld, harg1.read_unread, harg2.read_unread, View.ld_unit_zero (S := S512x1) hz]
  rfl

theorem w_v118 (c : Dev nD) (arg1 : Memref sig .tc .vmem S512x1 .f32) (harg1 : arg1.IsWhole) (arg2 : Memref sig .tc .vmem S1x8192 .f32) (harg2 : arg2.IsWhole) (arg4 : Memref sig .tc .vmem S512x1024 .f32) (x0 : Vec F S512x1 .f32) (x1 : Vec F S1x8192 .f32) :
    kernelRun0.sl.v118 c arg1 harg1 arg2 harg2 arg4 x0 x1 = acc8 x0 x1 := by
  unfold kernelRun0.sl.v118 kernelRun0.sl.HS0_9
  rw [Cert.LibReadBack.readCov_cons_unit_zero _ hz, w_v113]
  simp only [w_r, w_r1, w_r2, w_r3, View.readAt_eq_ld, harg1.read_unread, harg2.read_unread, View.ld_unit_zero (S := S512x1) hz]
  rfl

/-! ## The output block -/

/-- What a point writes back: the row sums of the eight-step accumulator of its two input blocks. -/
theorem out0_2_eq (c : Dev nD) (i : grid0.Coords) (arg1 : Memref sig .tc .vmem S512x1 .f32) (harg1 : arg1.IsWhole) (arg2 : Memref sig .tc .vmem S1x8192 .f32) (harg2 : arg2.IsWhole) (arg3 : Memref sig .tc .vmem S512x1 .f32) (harg3 : arg3.IsWhole) (arg4 : Memref sig .tc .vmem S512x1024 .f32) (harg4 : arg4.IsWhole)
    (x0 : Vec F S512x1 .f32) (x1 : Vec F S1x8192 .f32) :
    out0_2 c i arg1 harg1 arg2 harg2 arg3 harg3 arg4 harg4 x0 x1 = k0_pay2 (acc8 x0 x1) := by
  unfold out0_2
  have h : (kernelRun0 c i arg1 harg1 arg2 harg2 arg3 harg3 arg4 harg4 x0 x1).1
      = [⟨Rect.unit (s := S512x1) ![0, 0] S512x1.size inb_S512x1_S512x1_0_0, k0_pay2 (kernelRun0.sl.v118 c arg1 harg1 arg2 harg2 arg4 x0 x1)⟩] := rfl
  rw [h, View.canon_unit_zero hz, w_v118]

end Cert.KernelIdeal.Hand

end
-- ==== Proof.LibBlocks.lean ====
/-
  A sum over rows grouped into equal consecutive blocks: summing each block and then the block sums is the sum
  over all rows, in any commutative monoid (no finiteness is involved: the regrouping of a finite sum).
-/
import Mathlib.Algebra.BigOperators.Fin
import Mathlib.Logic.Equiv.Fin.Basic
import Mathlib.Tactic

namespace Cert.LibBlocks

/-- Row `q` of block `t`, when `B` blocks of `T` rows make up `R` rows. -/
def blockRow {B T R : ℕ} (h : B * T = R) (t : Fin B) (q : Fin T) : Fin R :=
  ⟨t.val * T + q.val, by
    have ht := t.isLt
    have hq := q.isLt
    calc t.val * T + q.val < t.val * T + T := by omega
      _ = (t.val + 1) * T := by ring
      _ ≤ B * T := Nat.mul_le_mul_right T ht
      _ = R := h⟩

theorem blockRow_val {B T R : ℕ} (h : B * T = R) (t : Fin B) (q : Fin T) : (blockRow h t q).val = t.val * T + q.val := rfl

/-- The block sums add up to the whole sum. -/
theorem sum_blocks {M : Type*} [AddCommMonoid M] {B T R : ℕ} (h : B * T = R) (f : Fin R → M) :
    ∑ t : Fin B, ∑ q : Fin T, f (blockRow h t q) = ∑ r : Fin R, f r := by
  subst h
  rw [← Equiv.sum_comp finProdFinEquiv f, Fintype.sum_prod_type]
  refine Finset.sum_congr rfl fun t _ => Finset.sum_congr rfl fun q _ => ?_
  congr 1
  apply Fin.ext
  simp only [blockRow_val, finProdFinEquiv_apply_val]
  ring

end Cert.LibBlocks
-- ==== Proof.Spec.lean ====
/-
  The pairwise margin sum and its regrouping.

  For a positive p and the negatives n_0 .. n_8191, q(p) = sum_j max((n_j - p) + 0.1, 0) over the extended reals.
  One program sums over j in one go, starting from zero. The other keeps 1024 running sums, one per lane l, and feeds lane l
  the entries n_l, n_(1024+l), .., n_(7168+l) in that order, starting from zero; then it adds the 1024 lane sums. Both are the
  same finite sum taken in two orders, and addition on the extended reals is commutative and associative whatever the
  summands are (infinite ones included), so the two agree with nothing assumed about the inputs.
-/
import Idealize.ShloMosaic.PureOps.Ideal.Laws
import proofs.«179679_j68685116998321_2_alg».proof.Proof.LibBlocks

noncomputable section

namespace Cert.Spec

open Idealize.ShloMosaic Cert.LibBlocks

/-- The margin of one (negative, positive) pair: max((n - p) + 0.1, 0); the two constants are kept as their float words,
    the same words in both programs. -/
def margin (n p : EReal) : EReal :=
  max ((n - p) + Ideal.ofBits .f32 0x3DCCCCCD#32) (Ideal.ofBits .f32 0x00000000#32)

/-- The margin sum of one positive against all the negatives. -/
def q (neg : Fin 8192 → EReal) (p : EReal) : EReal := ∑ j : Fin 8192, margin (neg j) p

/-- Eight chunks of 1024 make up the 8192 negatives. -/
theorem h8 : 8 * 1024 = 8192 := rfl

/-- Lane sums first: lane `l` accumulates, from zero, the entries `c * 1024 + l` for c = 0 .. 7 in order; the lane sums
    added up are the sum over all entries. In any commutative monoid. -/
theorem lanes_then_chunks {M : Type*} [AddCommMonoid M] (f : Fin 8192 → M) :
    ∑ l : Fin 1024, ((((((((0 + f (blockRow h8 0 l)) + f (blockRow h8 1 l)) + f (blockRow h8 2 l)) + f (blockRow h8 3 l))
        + f (blockRow h8 4 l)) + f (blockRow h8 5 l)) + f (blockRow h8 6 l)) + f (blockRow h8 7 l))
      = ∑ j : Fin 8192, f j := by
  rw [← sum_blocks h8 f, Finset.sum_comm]
  refine Finset.sum_congr rfl fun l _ => ?_
  rw [Fin.sum_univ_eight, zero_add]

end Cert.Spec

end
-- ==== Proof.LibRowReduce.lean ====
/-
  Reductions over the LAST axis, read at coordinates.

  A matrix `[a, b]` reduced over its lane axis gives, at row `r`, the sum / the fold of `max` / the fold of `min` over
  `k : Fin b` of the entry `(r, k)`; a rank-3 array `[n0, n1, n2]` reduced on the host over its last axis gives, at
  `(i, j)`, the fold of the reduce's body from the initial value over `k : Fin n2` of the entry `(i, j, k)`. The library
  states these over the reduced index with the coordinate re-inserted (`Shape.Reduces.lift`); here the re-inserted
  index is written by its coordinates, so that both readings of one row meet as folds of one function on `Fin b`.
  Library imports only.
-/
import Idealize.ShloMosaic.PureOps.Ideal.Laws
import Idealize.ShloMosaic.Lib.ValueIdx

noncomputable section

namespace Cert.LibRowReduce

open Idealize.ShloMosaic Idealize.ShloMosaic.ValueIdx

variable {φ : FTy}

/-- Row `r` with lane `k` put back is the entry `(r, k)`. -/
theorem lift_row {a b : ℕ} (h : (⟨2, ![a, b]⟩ : Shape).Reduces [1] ⟨1, ![a]⟩) (r : Fin a) (k : Fin b) :
    h.lift (ix1 r) k = ix2 r k := by
  funext c; apply Fin.ext
  fin_cases c <;> rfl

/-- A lane sum of a matrix at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- A lane maximum of a matrix at row `r`: the fold of `max` from the accumulator's value over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) fun k => src (ix2 r k) :=
  (Ideal.multiReduction_maximumf_single src acc h hφ hacc (ix1 r)).trans
    (congrArg (fun f => Finset.fold max (Ideal.ofBits φ acc) f (Finset.univ : Finset (Fin b)))
      (funext fun k => congrArg src (lift_row h r k)))

/-- A lane minimum of a matrix at row `r`: the fold of `min` from the accumulator's value over the row's entries. -/
theorem multiReduction_min_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (r : Fin a) :
    multiReduction .minimumf [1] ⟨1, ![a]⟩ src acc h hφ hacc (ix1 r)
      = (Finset.univ : Finset (Fin b)).fold min (Ideal.ofBits φ acc) fun k => src (ix2 r k) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- Index `(i, j)` with the last coordinate `k` put back is the entry `(i, j, k)`. -/
theorem lift_last3 {n0 n1 n2 : ℕ} (h : (⟨3, ![n0, n1, n2]⟩ : Shape).Reduces [2] ⟨2, ![n0, n1]⟩) (i : Fin n0) (j : Fin n1)
    (k : Fin n2) : h.lift (ix2 i j) k = ix3 i j k := by
  funext c; apply Fin.ext
  fin_cases c <;> rfl

/-- The host's reduce of a rank-3 array over its last axis by a commutative, associative body, at `(i, j)`: the fold from
    the initial value over the entries `(i, j, k)`. -/
theorem hostReduce_last3 {α : Type} {n0 n1 n2 : ℕ} {u : Shape} (f : α → α → α) [Std.Commutative f] [Std.Associative f]
    (x : (⟨3, ![n0, n1, n2]⟩ : Shape).Idx → α) (init : u.Idx → α)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (i : Fin n0) (j : Fin n1) :
    Host.reduce f x init h' hu (ix2 i j)
      = (Finset.univ : Finset (Fin n2)).fold f (init (Shape.Idx.first hu)) fun k => x (ix3 i j k) :=
  (Host.reduce_eq_fold_single f x init h' h hu (ix2 i j)).trans
    (congrArg (fun g => Finset.fold f (init (Shape.Idx.first hu)) g (Finset.univ : Finset (Fin n2)))
      (funext fun k => congrArg x (lift_last3 h i j k)))

/-- The host's float sum of a rank-3 array over its last axis, at `(i, j)`: the initial value plus the entries' sum. -/
theorem hostReduceAdd_last3 {n0 n1 n2 : ℕ} (x : (⟨3, ![n0, n1, n2]⟩ : Shape).Idx → EReal) (init : EReal)
    (h' : (⟨3, ![n0, n1, n2]⟩ : Shape).ReducesTo [2] ⟨2, ![n0, n1]⟩) (h : (⟨3, ![n0, n1, n2]⟩ : Shape).Reduces [2] ⟨2, ![n0, n1]⟩)
    (i : Fin n0) (j : Fin n1) :
    Ideal.hostReduceAdd h' x init (ix2 i j) = init + ∑ k : Fin n2, x (ix3 i j k) :=
  (Ideal.hostReduceAdd_single h' h x init (ix2 i j)).trans
    (congrArg (init + ·) (Finset.sum_congr rfl fun k _ => congrArg x (lift_last3 h i j k)))

end Cert.LibRowReduce

end
-- ==== Proof.LibColumnLayout.lean ====
/-
  Two layout operations on a column, read at an index: the forms a row sum kept as a column goes through before it meets a
  full matrix. (The library has the row forms `[a] → [1, a]` and `[1, b] → [a, b]`; these are their column counterparts.)
  Library imports only.
-/
import Idealize.ShloMosaic.Lib.ValueIdx
import Idealize.ShloMosaic.Lib.ValueLayout
import Idealize.ShloMosaic.Lib.Pipeline.Value

namespace Cert.LibColumnLayout

open Idealize.ShloMosaic Idealize.ShloMosaic.ValueIdx

/-- An `[a]` array cast to `[a, 1]` reads, at `(i, u)`, the operand at `i`, whatever the unit coordinate `u`: both indices
    have row-major position `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`, whatever `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnLayout
-- ==== Proof.KernelPayload.lean ====
/-
  The accumulator and the output block, entry by entry, over the extended reals.

  Entry (r, l) of the accumulator after chunk k is its entry after chunk k - 1 plus the margin of the pair
  (row entry k * 1024 + l, positive r): the chunk is spread down the rows, the positives along the lanes, and the rest is
  entrywise. Starting from zero and summing lane sums gives, for row r of the output block, the margin sum of positive r
  against all 8192 entries of the row.
-/
import proofs.«179679_j68685116998321_2_alg».proof.Proof.KernelIdealWords
import proofs.«179679_j68685116998321_2_alg».proof.Proof.Spec
import proofs.«179679_j68685116998321_2_alg».proof.Proof.LibRowReduce
import proofs.«179679_j68685116998321_2_alg».proof.Proof.LibColumnLayout
import Idealize.ShloMosaic.Lib.ValueLayout
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.Spec Cert.LibBlocks Cert.LibColumnLayout Cert.LibRowReduce

/-- Lane `l` of chunk `k` is entry `k * 1024 + l` of the row. -/
theorem chunk_apply (x1 : Vec Ideal S1x8192 .f32) (o : Nat) (inb : ∀ a, (![0, o] : Fin 2 → Nat) a + S1x1024.size a ≤ S1x8192.size a)
    (k : Fin 8) (ho : o = k.val * 1024) (l : Fin 1024) :
    View.ld x1 (Rect.unit (s := S1x8192) ![0, o] S1x1024.size inb) (ix2 (0 : Fin 1) l) = x1 (ix2 (0 : Fin 1) (blockRow h8 k l)) := by
  show x1 ((Rect.unit (s := S1x8192) ![0, o] S1x1024.size inb).idx (ix2 (0 : Fin 1) l)) = _
  refine congrArg x1 (funext fun a => Fin.ext ?_)
  match a with
  | ⟨0, _⟩ => rfl
  | ⟨1, _⟩ =>
    show o + 1 * l.val = k.val * 1024 + l.val
    omega

/-- Before the first chunk every entry is zero. -/
theorem acc0_apply (j : S512x1024.Idx) : acc0 (F := Ideal) j = 0 := by
  unfold acc0 k0_pay4
  simp only [broadcast, shapeCast_self, Ideal.ofBits_def]
  exact Ideal.ofBits_zero_f32

theorem acc1_apply (x0 : Vec Ideal S512x1 .f32) (x1 : Vec Ideal S1x8192 .f32) (r : Fin 512) (l : Fin 1024) :
    acc1 x0 x1 (ix2 r l)
      = acc0 (F := Ideal) (ix2 r l) + margin (x1 (ix2 (0 : Fin 1) (blockRow h8 0 l))) (x0 (ix2 r (0 : Fin 1))) := by
  unfold acc1 k0_pay5 k0_pay3
  simp only [addf, subf, maximumf, broadcast, shapeCast_self, Ideal.addf_def, Ideal.subf_def, Ideal.maximumf_def, Ideal.ofBits_def]
  rw [broadcastTo_1b_ab_apply, broadcastTo_a1_ab_apply, chunk_apply x1 0 inb_S1x8192_S1x1024_0_0 0 rfl l]
  rfl

theorem acc2_apply (x0 : Vec Ideal S512x1 .f32) (x1 : Vec Ideal S1x8192 .f32) (r : Fin 512) (l : Fin 1024) :
    acc2 x0 x1 (ix2 r l)
      = acc1 x0 x1 (ix2 r l) + margin (x1 (ix2 (0 : Fin 1) (blockRow h8 1 l))) (x0 (ix2 r (0 : Fin 1))) := by
  unfold acc2 k0_pay6 k0_pay3
  simp only [addf, subf, maximumf, broadcast, shapeCast_self, Ideal.addf_def, Ideal.subf_def, Ideal.maximumf_def, Ideal.ofBits_def]
  rw [broadcastTo_1b_ab_apply, broadcastTo_a1_ab_apply, chunk_apply x1 1024 inb_S1x8192_S1x1024_0_1024 1 rfl l]
  rfl

theorem acc3_apply (x0 : Vec Ideal S512x1 .f32) (x1 : Vec Ideal S1x8192 .f32) (r : Fin 512) (l : Fin 1024) :
    acc3 x0 x1 (ix2 r l)
      = acc2 x0 x1 (ix2 r l) + margin (x1 (ix2 (0 : Fin 1) (blockRow h8 2 l))) (x0 (ix2 r (0 : Fin 1))) := by
  unfold acc3 k0_pay7 k0_pay3
  simp only [addf, subf, maximumf, broadcast, shapeCast_self, Ideal.addf_def, Ideal.subf_def, Ideal.maximumf_def, Ideal.ofBits_def]
  rw [broadcastTo_1b_ab_apply, broadcastTo_a1_ab_apply, chunk_apply x1 2048 inb_S1x8192_S1x1024_0_2048 2 rfl l]
  rfl

theorem acc4_apply (x0 : Vec Ideal S512x1 .f32) (x1 : Vec Ideal S1x8192 .f32) (r : Fin 512) (l : Fin 1024) :
    acc4 x0 x1 (ix2 r l)
      = acc3 x0 x1 (ix2 r l) + margin (x1 (ix2 (0 : Fin 1) (blockRow h8 3 l))) (x0 (ix2 r (0 : Fin 1))) := by
  unfold acc4 k0_pay8 k0_pay3
  simp only [addf, subf, maximumf, broadcast, shapeCast_self, Ideal.addf_def, Ideal.subf_def, Ideal.maximumf_def, Ideal.ofBits_def]
  rw [broadcastTo_1b_ab_apply, broadcastTo_a1_ab_apply, chunk_apply x1 3072 inb_S1x8192_S1x1024_0_3072 3 rfl l]
  rfl

theorem acc5_apply (x0 : Vec Ideal S512x1 .f32) (x1 : Vec Ideal S1x8192 .f32) (r : Fin 512) (l : Fin 1024) :
    acc5 x0 x1 (ix2 r l)
      = acc4 x0 x1 (ix2 r l) + margin (x1 (ix2 (0 : Fin 1) (blockRow h8 4 l))) (x0 (ix2 r (0 : Fin 1))) := by
  unfold acc5 k0_pay10 k0_pay9 k0_pay3
  simp only [addf, subf, maximumf, broadcast, shapeCast_self, Ideal.addf_def, Ideal.subf_def, Ideal.maximumf_def, Ideal.ofBits_def]
  rw [broadcastTo_1b_ab_apply, broadcastTo_a1_ab_apply, chunk_apply x1 4096 inb_S1x8192_S1x1024_0_4096 4 rfl l]
  rfl

theorem acc6_apply (x0 : Vec Ideal S512x1 .f32) (x1 : Vec Ideal S1x8192 .f32) (r : Fin 512) (l : Fin 1024) :
    acc6 x0 x1 (ix2 r l)
      = acc5 x0 x1 (ix2 r l) + margin (x1 (ix2 (0 : Fin 1) (blockRow h8 5 l))) (x0 (ix2 r (0 : Fin 1))) := by
  unfold acc6 k0_pay11 k0_pay3
  simp only [addf, subf, maximumf, broadcast, shapeCast_self, Ideal.addf_def, Ideal.subf_def, Ideal.maximumf_def, Ideal.ofBits_def]
  rw [broadcastTo_1b_ab_apply, broadcastTo_a1_ab_apply, chunk_apply x1 5120 inb_S1x8192_S1x1024_0_5120 5 rfl l]
  rfl

theorem acc7_apply (x0 : Vec Ideal S512x1 .f32) (x1 : Vec Ideal S1x8192 .f32) (r : Fin 512) (l : Fin 1024) :
    acc7 x0 x1 (ix2 r l)
      = acc6 x0 x1 (ix2 r l) + margin (x1 (ix2 (0 : Fin 1) (blockRow h8 6 l))) (x0 (ix2 r (0 : Fin 1))) := by
  unfold acc7 k0_pay12 k0_pay3
  simp only [addf, subf, maximumf, broadcast, shapeCast_self, Ideal.addf_def, Ideal.subf_def, Ideal.maximumf_def, Ideal.ofBits_def]
  rw [broadcastTo_1b_ab_apply, broadcastTo_a1_ab_apply, chunk_apply x1 6144 inb_S1x8192_S1x1024_0_6144 6 rfl l]
  rfl

theorem acc8_apply (x0 : Vec Ideal S512x1 .f32) (x1 : Vec Ideal S1x8192 .f32) (r : Fin 512) (l : Fin 1024) :
    acc8 x0 x1 (ix2 r l)
      = acc7 x0 x1 (ix2 r l) + margin (x1 (ix2 (0 : Fin 1) (blockRow h8 7 l))) (x0 (ix2 r (0 : Fin 1))) := by
  unfold acc8 k0_pay1 k0_pay13 k0_pay14 k0_pay3
  simp only [addf, subf, maximumf, broadcast, shapeCast_self, Ideal.addf_def, Ideal.subf_def, Ideal.maximumf_def, Ideal.ofBits_def]
  rw [broadcastTo_1b_ab_apply, broadcastTo_a1_ab_apply, chunk_apply x1 7168 inb_S1x8192_S1x1024_0_7168 7 rfl l]
  rfl

/-- A lane sum of a 512x1024 matrix from the zero word, at row `r`: the sum of the row's entries. -/
theorem row_sum (src : FVec Ideal S512x1024 .f32) (h : S512x1024.Reduces [1] S512) (hφ : FKind.Formats .f32)
    (hacc : (0x00000000#32 : BitVec 32) = 0x00000000#32) (r : Fin 512) :
    multiReduction .add [1] S512 src 0x00000000#32 h hφ hacc (ix1 r) = ∑ k : Fin 1024, src (ix2 r k) :=
  multiReduction_add_row src 0x00000000#32 h hφ hacc r

/-- Row `r` of the output block: the margin sum of positive `r` against the whole row of negatives. -/
theorem out_row (x0 : Vec Ideal S512x1 .f32) (x1 : Vec Ideal S1x8192 .f32) (r : Fin 512) :
    k0_pay2 (acc8 x0 x1) (ix2 r (0 : Fin 1)) = q (fun j => x1 (ix2 (0 : Fin 1) j)) (x0 (ix2 r (0 : Fin 1))) := by
  unfold k0_pay2
  refine (shapeCast_a_a1_apply _ _ r (0 : Fin 1)).trans ?_
  refine (row_sum _ _ _ _ r).trans ?_
  simp only [acc8_apply, acc7_apply, acc6_apply, acc5_apply, acc4_apply, acc3_apply, acc2_apply, acc1_apply, acc0_apply]
  exact lanes_then_chunks fun j => margin (x1 (ix2 (0 : Fin 1) j)) (x0 (ix2 r (0 : Fin 1)))

end Cert.KernelIdeal.Hand

end
-- ==== Proof.KernelValue.lean ====
/-
  The region's result array.

  The positives enter the region reshaped to a 4096x1 column and the negatives to a 1x8192 row; point t stages rows
  512 t .. 512 t + 511 of the column and the whole row, and writes back rows 512 t .. 512 t + 511 of the 4096x1 result. What it
  writes in row r of its block is the margin sum of positive 512 t + r against all the negatives. The eight blocks tile the
  result, so after the run row i of the result holds the margin sum of positive i.
-/
import proofs.«179679_j68685116998321_2_alg».proof.Proof.KernelPayload

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Spec Cert.LibBlocks Cert.LibColumnLayout

variable (m : (ℓ : Loc nD τ sig) → Buf (Elt Ideal) ℓ) (ρ : Dev nD → PrngReg)

/-- The result array the region ends with: row `i` holds the margin sum of positive `i` against all the negatives. -/
def Gq (a0 : S4096.Idx → Elt Ideal .f32) (a1 : S8192.Idx → Elt Ideal .f32) : S4096x1.Idx → Elt Ideal .f32 :=
  fun i => q (fun j => a1 (ix1 j)) (a0 (ix1 (⟨(i 0).val, idx2_lt0 i⟩ : Fin 4096)))

/-! ## The region's input arrays are reshapes of the arguments -/

theorem V_main_v1 (c : Dev nD) :
    (V m c main_v1 : S4096x1.Idx → Elt Ideal .f32) = shapeCast S4096x1 (m ((c : Thread nD τ).loc main_arg0)) shapeCasts_S4096_S4096x1 := by
  show StableHlo.after hostOps0 (fun b => m (c, b)) (Proc.devRef .tc main_v1) = _
  after_results; rfl
theorem V_main_v2 (c : Dev nD) :
    (V m c main_v2 : S1x8192.Idx → Elt Ideal .f32) = shapeCast S1x8192 (m ((c : Thread nD τ).loc main_arg1)) shapeCasts_S8192_S1x8192 := by
  show StableHlo.after hostOps0 (fun b => m (c, b)) (Proc.devRef .tc main_v2) = _
  after_results; rfl

/-- The index maps over the grid: the column's block and the result's block move together, one block per point; the row's block
    never moves. -/
theorem idx_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) ≤ 7 :=
  (by decide +kernel : ∀ t : Fin grid0.N, _)

/-- Every one of the eight blocks of the result is some point's. -/
theorem idx_onto : ∀ q0 : Fin 8, ∃ t : Fin cfg0.N, win0_2.index t = ![q0.val, 0] :=
  (by decide +kernel : ∀ q0 : Fin 8, ∃ t : Fin grid0.N, win0_2.index t = ![q0.val, 0])

/-- Row `r` of the column's block at point `t` is the positive whose number is the result block's row `r`. -/
theorem iblk0_apply (c : Dev nD) (t : Fin cfg0.N) (r : Fin 512) :
    iblk m c 0 t (ix2 r (0 : Fin 1))
      = m ((c : Thread nD τ).loc main_arg0) (ix1 (⟨((((cfg0.win 2).blk t).view.emb (ix2 r (0 : Fin 1))) 0).val, idx2_lt0 _⟩ : Fin 4096)) := by
  show V m c main_v1 (((cfg0.win 0).blk t).view.emb (ix2 r (0 : Fin 1))) = _
  rw [V_main_v1]
  refine shapeCast_apply _ _ _ _ ?_
  obtain ⟨e0, e1, e2, e3, e4, e5⟩ := idx_facts t
  rw [Shape.rowMajor_val_two]
  refine (Shape.rowMajor_val_one (d := ![4096]) _).trans ?_
  show win0_2.index t (0 : Fin 2) * 512 + 1 * r.val = (win0_0.index t (0 : Fin 2) * 512 + 1 * r.val) * 1 + (win0_0.index t (1 : Fin 2) * 1 + 1 * 0)
  omega

/-- Entry `j` of the row's block, at any point, is negative `j`. -/
theorem iblk1_apply (c : Dev nD) (t : Fin cfg0.N) (j : Fin 8192) :
    iblk m c 1 t (ix2 (0 : Fin 1) j) = m ((c : Thread nD τ).loc main_arg1) (ix1 j) := by
  show V m c main_v2 (((cfg0.win 1).blk t).view.emb (ix2 (0 : Fin 1) j)) = _
  rw [V_main_v2]
  refine shapeCast_apply _ _ _ _ ?_
  obtain ⟨e0, e1, e2, e3, e4, e5⟩ := idx_facts t
  rw [Shape.rowMajor_val_two]
  refine (Shape.rowMajor_val_one (d := ![8192]) _).trans ?_
  show j.val = (win0_1.index t (0 : Fin 2) * 1 + 1 * 0) * 8192 + (win0_1.index t (1 : Fin 2) * 8192 + 1 * j.val)
  omega

/-- What point `t` writes back is block `t` of the result array `Gq`. -/
theorem flushed2_eq (c : Dev nD) (t : Fin cfg0.N) :
    (dats m 0 c).flushed 2 t = ((cfg0.win 2).blk t).view.read (Elt Ideal)
      (Gq (m ((c : Thread nD τ).loc main_arg0)) (m ((c : Thread nD τ).loc main_arg1))) := by
  show (cfg0.win 2).cut (grid0.coords t) ((dats m 0 c).after 2 t) = _
  rw [after0_2, out0_2_eq]
  funext y
  obtain ⟨r, u, rfl⟩ : ∃ (r : Fin 512) (u : Fin 1), y = ix2 r u := ⟨y 0, y 1, eq_ix2 y⟩
  obtain rfl : u = 0 := Subsingleton.elim _ _
  refine (out_row (iblk m c 0 t) (iblk m c 1 t) r).trans ?_
  show _ = Gq _ _ (((cfg0.win 2).blk t).view.emb (ix2 r (0 : Fin 1)))
  unfold Gq
  rw [iblk0_apply m c t r]
  exact congrArg (fun f => q f _) (funext fun j => iblk1_apply m c t j)

/-- An index of the result is in point `t`'s block iff each coordinate is in the block's range. -/
theorem mem_blk2 (t : Fin cfg0.N) (i : S4096x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v3).slice (win0_2.rect t)).set ↔ _
  rw [View.set_slice_whole, Rect.mem_set_unit]
  exact Iff.rfl

/-- Row `i` lies in block `i / 512`. -/
theorem cover2 (i : S4096x1.Idx) : ∃ t : Fin cfg0.N, (cfg0.win 2).flush t = true ∧ i ∈ ((cfg0.win 2).blk t).view.set := by
  have hi0 : (i 0).val < 4096 := (i 0).isLt
  have hi1 : (i 1).val < 1 := (i 1).isLt
  obtain ⟨t, ht⟩ := idx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk2]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1 ≤ (i 1).val ∧ (i 1).val < win0_2.index t (1 : Fin 2) * 1 + 1; omega

/-- The result array after the run. -/
theorem final2 (c : Dev nD) :
    (dats m 0 c).arrAt 2 cfg0.N = Gq (m ((c : Thread nD τ).loc main_arg0)) (m ((c : Thread nD τ).loc main_arg1)) :=
  (dats m 0 c).arrAt_eq_of_cover 2 _ (fun t _ => flushed2_eq m c t) cover2

end Cert.KernelIdeal.Hand

end
-- ==== Proof.LibHostLine.lean ====
/-
  Two facts about straight lines of host operations.

  Running two stretches of operations one after the other is running the second from where the first ends; so a long line can
  be read in parts, each from contents one does not look inside. And a dynamic slice of a rank-1 array has one start: whatever
  function of the one axis supplies it, only its value on that axis matters. (The second is what lets a start that a program
  looks up through a one-entry list of operands, under a binder, be replaced by the operand itself.) Library imports only.
-/
import Idealize.ShloMosaic.Lib.StableHlo.Run

noncomputable section

namespace Cert.LibHostLine

open Idealize.ShloMosaic

/-- The fold of the operations' results over an appended list is the fold over the second part from the first part's end. -/
theorem after_append {τ : Topo} {sig : RefSig} {Val : EltTy → Type} (l1 l2 : List (HloOp τ sig Val)) (V : Valuation τ sig Val) :
    StableHlo.after (l1 ++ l2) V = StableHlo.after l2 (StableHlo.after l1 V) := by
  induction l1 generalizing V with
  | nil => rfl
  | cons op l ih => simp only [List.cons_append, StableHlo.after_cons, ih]

/-- A slice of a rank-1 array takes one start: a start function on the one axis is its value there. -/
theorem dynSlice_one {α : Type} {d : Fin 1 → Nat} (t : Shape) (x : (⟨1, d⟩ : Shape).Idx → α)
    (start : Fin 1 → Int) (h : (⟨1, d⟩ : Shape).Slices (fun _ => 0) t) :
    Host.dynamicSlice t x start h = Host.dynamicSlice t x (fun _ => start 0) h :=
  congrArg (fun st => Host.dynamicSlice t x st h) (funext fun k => by rw [Subsingleton.elim k (0 : Fin 1)])

end Cert.LibHostLine

end
-- ==== Proof.Tail.lean ====
/-
  The host operations after the margin sums.

  Both programs finish the same way from four arrays: the indices `a2`, the multipliers `a3`, the scalar `mu` and the vector
  `qv` of margin sums. The loss is ((mu / 2) * qlast^2 + lam * qlast) / 2^25, where qlast is the last margin sum and lam is the
  multiplier at the last index (an index below zero counted from the end, the slice's start clamped by the slice itself); the
  new multipliers are the old ones with mu * qv scattered-and-added at the indices (again with negative indices counted from
  the end). They are written here once, as two functions of the four arrays, so that the two programs' results are compared by
  comparing `qv` alone.
-/
import proofs.«179679_j68685116998321_2_alg».proof.Proof.KernelValue
import Idealize.ShloMosaic.Lib.StableHlo.Run
import proofs.«179679_j68685116998321_2_alg».proof.Proof.LibHostLine

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- The last index, counted from the end when it is negative. -/
def lastIdx (a2 : IVec S4096 32) : IVec S_ 32 :=
  select (cmpi .slt (shapeCast S_ (extractStridedSlice S1 ![4095] a2 slices_S4096_S1_4095) shapeCasts_S1_S_) (constantI S_ 32 0#32))
    (addi (shapeCast S_ (extractStridedSlice S1 ![4095] a2 slices_S4096_S1_4095) shapeCasts_S1_S_) (constantI S_ 32 4096#32))
    (shapeCast S_ (extractStridedSlice S1 ![4095] a2 slices_S4096_S1_4095) shapeCasts_S1_S_)

/-- The last margin sum, as a scalar. -/
def qLast (qv : FVec Ideal S4096 .f32) : FVec Ideal S_ .f32 :=
  shapeCast S_ (extractStridedSlice S1 ![4095] qv slices_S4096_S1_4095) shapeCasts_S1_S_

/-- The loss. -/
def tailLoss (a2 : IVec S4096 32) (a3 : FVec Ideal S4096 .f32) (mu : FVec Ideal S_ .f32) (qv : FVec Ideal S4096 .f32) : FVec Ideal S_ .f32 :=
  Host.divf (F := Ideal)
    (addf (mulf (Host.divf (F := Ideal) mu (constant (F := Ideal) S_ .f32 0x40000000#32)) (mulf (qLast qv) (qLast qv)))
      (mulf (shapeCast S_ (Host.dynamicSlice S1 a3 (fun _ => (lastIdx a2 (Shape.Idx.first h_S_)).toInt) sliceFits_S4096_S1) shapeCasts_S1_S_) (qLast qv)))
    (constant (F := Ideal) S_ .f32 0x4C000000#32)

/-- The new multipliers. -/
def tailLam (a2 : IVec S4096 32) (a3 : FVec Ideal S4096 .f32) (mu : FVec Ideal S_ .f32) (qv : FVec Ideal S4096 .f32) : FVec Ideal S4096 .f32 :=
  Host.scatterAdd (F := Ideal) scatter_S4096_S4096x1_S4096_n_0_0_1 a3
    (broadcastInDim S4096x1 ![0] bcast_S4096_S4096x1_0
      (select (cmpi .slt a2 (broadcastInDim S4096 ![] bcast_S_S4096 (constantI S_ 32 0#32)))
        (addi a2 (broadcastInDim S4096 ![] bcast_S_S4096 (constantI S_ 32 4096#32))) a2))
    (mulf (broadcastInDim S4096 ![] bcast_S_S4096 mu) qv)

end Cert.KernelIdeal.Hand

namespace Cert.KernelIdeal.Hand

open Cert.KernelIdeal Cert.KernelIdeal.Gen Idealize.ShloMosaic Idealize.ShloMosaic.TcCoe

set_option maxHeartbeats 2000000 in
/-- The kernel program's operations after the region compute the loss from the region's result reshaped to a vector. -/
theorem tail_loss_K (W : Valuation τ sig (Elt Ideal)) :
    StableHlo.after hostOps1 W (Proc.devRef .tc main_v19)
      = tailLoss (W (Proc.devRef .tc main_arg2)) (W (Proc.devRef .tc main_arg3)) (W (Proc.devRef .tc main_v0))
          (shapeCast S4096 (W (Proc.devRef .tc main_v3)) shapeCasts_S4096x1_S4096) := by
  simp (disch := decide) only [StableHlo.after_cons, StableHlo.after_nil,
      StableHlo.nullary_result', StableHlo.unary_result', StableHlo.binary_result', StableHlo.ternary_result', StableHlo.quaternary_result', StableHlo.reshape_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.unaryIndexed_result_ne', StableHlo.binaryIndexed_result_ne']
  rw [Cert.LibHostLine.dynSlice_one]
  dsimp only [Matrix.cons_val_zero]
  simp (disch := decide) only [StableHlo.after_cons, StableHlo.after_nil,
      StableHlo.nullary_result', StableHlo.unary_result', StableHlo.binary_result', StableHlo.ternary_result', StableHlo.quaternary_result', StableHlo.reshape_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.unaryIndexed_result_ne', StableHlo.binaryIndexed_result_ne']
  unfold tailLoss lastIdx qLast
  rfl

set_option maxHeartbeats 2000000 in
/-- And the new multipliers. -/
theorem tail_lam_K (W : Valuation τ sig (Elt Ideal)) :
    StableHlo.after hostOps1 W (Proc.devRef .tc main_v28)
      = tailLam (W (Proc.devRef .tc main_arg2)) (W (Proc.devRef .tc main_arg3)) (W (Proc.devRef .tc main_v0))
          (shapeCast S4096 (W (Proc.devRef .tc main_v3)) shapeCasts_S4096x1_S4096) := by
  simp (disch := decide) only [StableHlo.after_cons, StableHlo.after_nil,
      StableHlo.nullary_result', StableHlo.unary_result', StableHlo.binary_result', StableHlo.ternary_result', StableHlo.quaternary_result', StableHlo.reshape_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.unaryIndexed_result_ne', StableHlo.binaryIndexed_result_ne']
  rfl

end Cert.KernelIdeal.Hand

end
-- ==== Proof.KernelResults.lean ====
/-
  The kernel program's two results.

  After the region the program reshapes the region's 4096x1 result to a vector and runs the common tail on it. The region's
  result is the column of margin sums, so the two results are the tail's loss and new multipliers of (indices, multipliers,
  the scalar, the vector of margin sums), every one of them a function of the five arguments as launched.
-/
import proofs.«179679_j68685116998321_2_alg».proof.Proof.Tail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.Spec

variable (m : (ℓ : Loc nD τ sig) → Buf (Elt Ideal) ℓ) (ρ : Dev nD → PrngReg)

/-- The scalar as the region finds it: the one-entry argument reshaped. -/
theorem V_main_v0 (c : Dev nD) :
    (V m c main_v0 : S_.Idx → Elt Ideal .f32) = shapeCast S_ (m ((c : Thread nD τ).loc main_arg4)) shapeCasts_S1_S_ := by
  show StableHlo.after hostOps0 (fun b => m (c, b)) (Proc.devRef .tc main_v0) = _
  after_results; rfl

/-- What the operations after the region start from: the region's arrays at what the write-backs computed, every other buffer
    as the region found it. -/
abbrev WA (c : Dev nD) : Valuation τ sig (Elt Ideal) :=
  Pipeline.withArrays spec0 c (V0 m c) (fun w => (dats m 0 c).arrAt w cfg0.N)

theorem WA_arg2 (c : Dev nD) : WA m c (Proc.devRef .tc main_arg2) = m ((c : Thread nD τ).loc main_arg2) :=
  (Pipeline.withArrays_of_ne _ c (V0 m c) _ main_arg2 (by exact (by decide : ∀ w, Pipeline.arrRef spec0 w ≠ main_arg2))).trans (V_main_arg2 m c)
theorem WA_arg3 (c : Dev nD) : WA m c (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)
theorem WA_v0 (c : Dev nD) : WA m c (Proc.devRef .tc main_v0) = shapeCast S_ (m ((c : Thread nD τ).loc main_arg4)) shapeCasts_S1_S_ :=
  (Pipeline.withArrays_of_ne _ c (V0 m c) _ main_v0 (by exact (by decide : ∀ w, Pipeline.arrRef spec0 w ≠ main_v0))).trans (V_main_v0 m c)
theorem WA_v3 (c : Dev nD) : WA m c (Proc.devRef .tc main_v3)
    = Gq (m ((c : Thread nD τ).loc main_arg0)) (m ((c : Thread nD τ).loc main_arg1)) :=
  (Pipeline.withArrays_arr spec0 launch0.win.arr_inj c _ _ 2).trans (final2 m c)

/-- The margin sums as a vector: the region's column reshaped. -/
def qVec (a0 : S4096.Idx → Elt Ideal .f32) (a1 : S8192.Idx → Elt Ideal .f32) : FVec Ideal S4096 .f32 :=
  shapeCast S4096 (Gq a0 a1) shapeCasts_S4096x1_S4096

/-- Entry `i` of it is the margin sum of positive `i`. -/
theorem qVec_apply (a0 : S4096.Idx → Elt Ideal .f32) (a1 : S8192.Idx → Elt Ideal .f32) (i : Fin 4096) :
    qVec a0 a1 (ix1 i) = q (fun j => a1 (ix1 j)) (a0 (ix1 i)) := by
  unfold qVec
  refine (shapeCast_apply _ _ (ix1 i) (ix2 i (0 : Fin 1)) ?_).trans ?_
  · rw [Shape.rowMajor_val_two]
    refine Eq.trans ?_ (Shape.rowMajor_val_one (d := ![4096]) _).symm
    show i.val * 1 + 0 = i.val
    omega
  · rfl

theorem res_loss_K (c : Dev nD) :
    Pipeline.afterTail₀ cfgs (dats m) 0 (V0 m) [hostOps1] c main_v19
      = tailLoss (m ((c : Thread nD τ).loc main_arg2)) (m ((c : Thread nD τ).loc main_arg3))
          (shapeCast S_ (m ((c : Thread nD τ).loc main_arg4)) shapeCasts_S1_S_)
          (qVec (m ((c : Thread nD τ).loc main_arg0)) (m ((c : Thread nD τ).loc main_arg1))) := by
  unfold Pipeline.afterTail₀
  show StableHlo.after hostOps1 (WA m c) (Proc.devRef .tc main_v19) = _
  rw [tail_loss_K, WA_arg2, WA_arg3, WA_v0, WA_v3]
  rfl

theorem res_lam_K (c : Dev nD) :
    Pipeline.afterTail₀ cfgs (dats m) 0 (V0 m) [hostOps1] c main_v28
      = tailLam (m ((c : Thread nD τ).loc main_arg2)) (m ((c : Thread nD τ).loc main_arg3))
          (shapeCast S_ (m ((c : Thread nD τ).loc main_arg4)) shapeCasts_S1_S_)
          (qVec (m ((c : Thread nD τ).loc main_arg0)) (m ((c : Thread nD τ).loc main_arg1))) := by
  unfold Pipeline.afterTail₀
  show StableHlo.after hostOps1 (WA m c) (Proc.devRef .tc main_v28) = _
  rw [tail_lam_K, WA_arg2, WA_arg3, WA_v0, WA_v3]
  rfl

/-- The kernel program's run, read: both results as functions of the arguments, the arguments unchanged. -/
theorem run_K : θ_run defs (onTc (τ := τ) (main (F := Ideal))) ⟨m, fun _ => 0, ρ⟩ (fun r => ∀ c : Dev nD,
      r.2.mem ((c.tc : Thread nD τ).loc main_v28)
          = tailLam (m ((c : Thread nD τ).loc main_arg2)) (m ((c : Thread nD τ).loc main_arg3))
              (shapeCast S_ (m ((c : Thread nD τ).loc main_arg4)) shapeCasts_S1_S_)
              (qVec (m ((c : Thread nD τ).loc main_arg0)) (m ((c : Thread nD τ).loc main_arg1)))
      ∧ r.2.mem ((c.tc : Thread nD τ).loc main_v19)
          = tailLoss (m ((c : Thread nD τ).loc main_arg2)) (m ((c : Thread nD τ).loc main_arg3))
              (shapeCast S_ (m ((c : Thread nD τ).loc main_arg4)) shapeCasts_S1_S_)
              (qVec (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    ((h c).2 main_v28 (Pipeline.mem_restRefs_of main_v28 (by decide) (by decide))).trans (res_lam_K m c),
    ((h c).2 main_v19 (Pipeline.mem_restRefs_of main_v19 (by decide) (by decide))).trans (res_loss_K m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩)
    (run_main m ρ)

end Cert.KernelIdeal.Hand

end
-- ==== Proof.RefValue.lean ====
/-
  The reference program's results, read.

  The reference is forty-four host operations in a row. The first fourteen form the 4096x8192 matrix of margins
  max((n_j - p_i) + 0.1, 0) and sum each row from zero: row i's sum is the margin sum of positive i. The remaining thirty are the
  common tail (loss and new multipliers) applied to those sums. So its two results are the tail's two functions of the index
  array, the multipliers, the scalar and the vector of margin sums, and no operation writes an argument.
-/
import proofs.«179679_j68685116998321_2_alg».proof.Proof.RefReadP
import proofs.«179679_j68685116998321_2_alg».proof.Proof.Tail

set_option maxRecDepth 16384

noncomputable section

namespace Cert.ReferenceIdeal.Hand

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo
open Idealize.ShloMosaic.ValueIdx Cert.Spec

variable {F : FTy → Type} [FloatOps F]

/-- The first fourteen operations: the margins and their row sums. -/
abbrev opsHead : List (HloOp τ sig (Elt F)) :=
  [ reshape main_arg4 main_v0 rfl shapeCasts_S1_S_,
    unary main_arg1 main_v1 (broadcastInDim S1x8192 ![1] bcast_S8192_S1x8192_1 : (⟨S8192, .f32⟩ : BufTy).Contents (Elt F) → (⟨S1x8192, .f32⟩ : BufTy).Contents (Elt F)),
    unary main_arg0 main_v2 (broadcastInDim S4096x1 ![0] bcast_S4096_S4096x1_0 : (⟨S4096, .f32⟩ : BufTy).Contents (Elt F) → (⟨S4096x1, .f32⟩ : BufTy).Contents (Elt F)),
    unary main_v1 main_v3 (broadcastInDim S4096x8192 ![0, 1] bcast_S1x8192_S4096x8192_0_1 : (⟨S1x8192, .f32⟩ : BufTy).Contents (Elt F) → (⟨S4096x8192, .f32⟩ : BufTy).Contents (Elt F)),
    unary main_v2 main_v4 (broadcastInDim S4096x8192 ![0, 1] bcast_S4096x1_S4096x8192_0_1 : (⟨S4096x1, .f32⟩ : BufTy).Contents (Elt F) → (⟨S4096x8192, .f32⟩ : BufTy).Contents (Elt F)),
    binary main_v3 main_v4 main_v5 (subf : (⟨S4096x8192, .f32⟩ : BufTy).Contents (Elt F) → (⟨S4096x8192, .f32⟩ : BufTy).Contents (Elt F) → (⟨S4096x8192, .f32⟩ : BufTy).Contents (Elt F)),
    nullary main_cst (constant S_ .f32 0x3DCCCCCD#32),
    unary main_cst main_v6 (broadcastInDim S4096x8192 ![] bcast_S_S4096x8192 : (⟨S_, .f32⟩ : BufTy).Contents (Elt F) → (⟨S4096x8192, .f32⟩ : BufTy).Contents (Elt F)),
    binary main_v5 main_v6 main_v7 (addf : (⟨S4096x8192, .f32⟩ : BufTy).Contents (Elt F) → (⟨S4096x8192, .f32⟩ : BufTy).Contents (Elt F) → (⟨S4096x8192, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4096x8192, .f32⟩) main_call0_v0) (broadcastInDim S4096x8192 ![] bcast_S_S4096x8192),
    TRef.binary (TRef.of (T := ⟨S4096x8192, .f32⟩) main_v7) (TRef.of (T := ⟨S4096x8192, .f32⟩) main_call0_v0) (TRef.of (T := ⟨S4096x8192, .f32⟩) main_v8) maximumf,
    nullary main_cst_0 (constant S_ .f32 0x00000000#32),
    binary main_v8 main_cst_0 main_v9 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)) ]
/-- The thirty operations after them: the loss and the new multipliers. -/
abbrev opsTail : List (HloOp τ sig (Elt F)) :=
  [ unary main_v9 main_v10 ((extractStridedSlice S1 ![4095] · slices_S4096_S1_4095) : (⟨S4096, .f32⟩ : BufTy).Contents (Elt F) → (⟨S1, .f32⟩ : BufTy).Contents (Elt F)),
    reshape main_v10 main_v11 rfl shapeCasts_S1_S_,
    unary main_arg2 main_v12 ((extractStridedSlice S1 ![4095] · slices_S4096_S1_4095) : (⟨S4096, .i32⟩ : BufTy).Contents (Elt F) → (⟨S1, .i32⟩ : BufTy).Contents (Elt F)),
    reshape main_v12 main_v13 rfl shapeCasts_S1_S_,
    nullary main_c (constantI S_ 32 0#32),
    binary main_v13 main_c main_v14 (cmpi .slt : (⟨S_, .i32⟩ : BufTy).Contents (Elt F) → (⟨S_, .i32⟩ : BufTy).Contents (Elt F) → (⟨S_, .i1⟩ : BufTy).Contents (Elt F)),
    nullary main_c_1 (constantI S_ 32 4096#32),
    binary main_v13 main_c_1 main_v15 (addi : (⟨S_, .i32⟩ : BufTy).Contents (Elt F) → (⟨S_, .i32⟩ : BufTy).Contents (Elt F) → (⟨S_, .i32⟩ : BufTy).Contents (Elt F)),
    ternary main_v14 main_v15 main_v13 main_v16 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_arg3 ![main_v16] ⟨S_, .i32⟩ main_v17 ((fun x i => Host.dynamicSlice S1 x (fun k => (i k (Shape.Idx.first h_S_)).toInt) sliceFits_S4096_S1) : (⟨S4096, .f32⟩ : BufTy).Contents (Elt F) → (Fin 1 → (⟨S_, .i32⟩ : BufTy).Contents (Elt F)) → (⟨S1, .f32⟩ : BufTy).Contents (Elt F)),
    reshape main_v17 main_v18 rfl shapeCasts_S1_S_,
    nullary main_cst_2 (constant S_ .f32 0x40000000#32),
    binary main_v0 main_cst_2 main_v19 (Host.divf : (⟨S_, .f32⟩ : BufTy).Contents (Elt F) → (⟨S_, .f32⟩ : BufTy).Contents (Elt F) → (⟨S_, .f32⟩ : BufTy).Contents (Elt F)),
    binary main_v11 main_v11 main_v20 (mulf : (⟨S_, .f32⟩ : BufTy).Contents (Elt F) → (⟨S_, .f32⟩ : BufTy).Contents (Elt F) → (⟨S_, .f32⟩ : BufTy).Contents (Elt F)),
    binary main_v19 main_v20 main_v21 (mulf : (⟨S_, .f32⟩ : BufTy).Contents (Elt F) → (⟨S_, .f32⟩ : BufTy).Contents (Elt F) → (⟨S_, .f32⟩ : BufTy).Contents (Elt F)),
    binary main_v18 main_v11 main_v22 (mulf : (⟨S_, .f32⟩ : BufTy).Contents (Elt F) → (⟨S_, .f32⟩ : BufTy).Contents (Elt F) → (⟨S_, .f32⟩ : BufTy).Contents (Elt F)),
    binary main_v21 main_v22 main_v23 (addf : (⟨S_, .f32⟩ : BufTy).Contents (Elt F) → (⟨S_, .f32⟩ : BufTy).Contents (Elt F) → (⟨S_, .f32⟩ : BufTy).Contents (Elt F)),
    nullary main_cst_3 (constant S_ .f32 0x4C000000#32),
    binary main_v23 main_cst_3 main_v24 (Host.divf : (⟨S_, .f32⟩ : BufTy).Contents (Elt F) → (⟨S_, .f32⟩ : BufTy).Contents (Elt F) → (⟨S_, .f32⟩ : BufTy).Contents (Elt F)),
    unary main_v0 main_v25 (broadcastInDim S4096 ![] bcast_S_S4096 : (⟨S_, .f32⟩ : BufTy).Contents (Elt F) → (⟨S4096, .f32⟩ : BufTy).Contents (Elt F)),
    binary main_v25 main_v9 main_v26 (mulf : (⟨S4096, .f32⟩ : BufTy).Contents (Elt F) → (⟨S4096, .f32⟩ : BufTy).Contents (Elt F) → (⟨S4096, .f32⟩ : BufTy).Contents (Elt F)),
    nullary main_c_4 (constantI S_ 32 0#32),
    unary main_c_4 main_v27 (broadcastInDim S4096 ![] bcast_S_S4096 : (⟨S_, .i32⟩ : BufTy).Contents (Elt F) → (⟨S4096, .i32⟩ : BufTy).Contents (Elt F)),
    binary main_arg2 main_v27 main_v28 (cmpi .slt : (⟨S4096, .i32⟩ : BufTy).Contents (Elt F) → (⟨S4096, .i32⟩ : BufTy).Contents (Elt F) → (⟨S4096, .i1⟩ : BufTy).Contents (Elt F)),
    nullary main_c_5 (constantI S_ 32 4096#32),
    unary main_c_5 main_v29 (broadcastInDim S4096 ![] bcast_S_S4096 : (⟨S_, .i32⟩ : BufTy).Contents (Elt F) → (⟨S4096, .i32⟩ : BufTy).Contents (Elt F)),
    binary main_arg2 main_v29 main_v30 (addi : (⟨S4096, .i32⟩ : BufTy).Contents (Elt F) → (⟨S4096, .i32⟩ : BufTy).Contents (Elt F) → (⟨S4096, .i32⟩ : BufTy).Contents (Elt F)),
    ternary main_v28 main_v30 main_arg2 main_v31 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v31 main_v32 (broadcastInDim S4096x1 ![0] bcast_S4096_S4096x1_0 : (⟨S4096, .i32⟩ : BufTy).Contents (Elt F) → (⟨S4096x1, .i32⟩ : BufTy).Contents (Elt F)),
    ternary main_arg3 main_v32 main_v26 main_v33 ((fun x i u => Host.scatterAdd scatter_S4096_S4096x1_S4096_n_0_0_1 x i u) : (⟨S4096, .f32⟩ : BufTy).Contents (Elt F) → (⟨S4096x1, .i32⟩ : BufTy).Contents (Elt F) → (⟨S4096, .f32⟩ : BufTy).Contents (Elt F) → (⟨S4096, .f32⟩ : BufTy).Contents (Elt F)) ]

theorem ops_split : (ops : List (HloOp τ sig (Elt F))) = opsHead ++ opsTail := rfl

/-! ## The tail, from any contents -/

set_option maxHeartbeats 2000000 in
theorem tail_loss_R (W : Valuation τ sig (Elt Ideal)) :
    after opsTail W (Proc.devRef .tc main_v24)
      = Cert.KernelIdeal.Hand.tailLoss (W (Proc.devRef .tc main_arg2)) (W (Proc.devRef .tc main_arg3)) (W (Proc.devRef .tc main_v0))
          (W (Proc.devRef .tc main_v9)) := by
  simp (disch := decide) only [StableHlo.after_cons, StableHlo.after_nil,
      StableHlo.nullary_result', StableHlo.unary_result', StableHlo.binary_result', StableHlo.ternary_result', StableHlo.quaternary_result', StableHlo.reshape_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.unaryIndexed_result_ne', StableHlo.binaryIndexed_result_ne']
  rw [Cert.LibHostLine.dynSlice_one]
  dsimp only [Matrix.cons_val_zero]
  simp (disch := decide) only [StableHlo.after_cons, StableHlo.after_nil,
      StableHlo.nullary_result', StableHlo.unary_result', StableHlo.binary_result', StableHlo.ternary_result', StableHlo.quaternary_result', StableHlo.reshape_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.unaryIndexed_result_ne', StableHlo.binaryIndexed_result_ne']
  unfold Cert.KernelIdeal.Hand.tailLoss Cert.KernelIdeal.Hand.lastIdx Cert.KernelIdeal.Hand.qLast
  rfl

set_option maxHeartbeats 2000000 in
theorem tail_lam_R (W : Valuation τ sig (Elt Ideal)) :
    after opsTail W (Proc.devRef .tc main_v33)
      = Cert.KernelIdeal.Hand.tailLam (W (Proc.devRef .tc main_arg2)) (W (Proc.devRef .tc main_arg3)) (W (Proc.devRef .tc main_v0))
          (W (Proc.devRef .tc main_v9)) := by
  simp (disch := decide) only [StableHlo.after_cons, StableHlo.after_nil,
      StableHlo.nullary_result', StableHlo.unary_result', StableHlo.binary_result', StableHlo.ternary_result', StableHlo.quaternary_result', StableHlo.reshape_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.unaryIndexed_result_ne', StableHlo.binaryIndexed_result_ne']
  rfl

/-! ## The head: what the tail finds -/

set_option maxHeartbeats 2000000 in
theorem head_q (M : Valuation τ sig (Elt Ideal)) :
    after opsHead M (Proc.devRef .tc main_v9)
      = val_main_v9 (F := Ideal) (M (Proc.devRef .tc main_arg0)) (M (Proc.devRef .tc main_arg1)) := by
  simp (disch := decide) only [StableHlo.after_cons, StableHlo.after_nil,
      StableHlo.nullary_result', StableHlo.unary_result', StableHlo.binary_result', StableHlo.ternary_result', StableHlo.quaternary_result', StableHlo.reshape_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.unaryIndexed_result_ne', StableHlo.binaryIndexed_result_ne']
  rfl
set_option maxHeartbeats 2000000 in
theorem head_mu (M : Valuation τ sig (Elt Ideal)) :
    after opsHead M (Proc.devRef .tc main_v0) = shapeCast S_ (M (Proc.devRef .tc main_arg4)) shapeCasts_S1_S_ := by
  simp (disch := decide) only [StableHlo.after_cons, StableHlo.after_nil,
      StableHlo.nullary_result', StableHlo.unary_result', StableHlo.binary_result', StableHlo.ternary_result', StableHlo.quaternary_result', StableHlo.reshape_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.unaryIndexed_result_ne', StableHlo.binaryIndexed_result_ne']
  rfl
set_option maxHeartbeats 2000000 in
theorem head_arg2 (M : Valuation τ sig (Elt Ideal)) :
    after opsHead M (Proc.devRef .tc main_arg2) = M (Proc.devRef .tc main_arg2) := by
  simp (disch := decide) only [StableHlo.after_cons, StableHlo.after_nil,
      StableHlo.nullary_result', StableHlo.unary_result', StableHlo.binary_result', StableHlo.ternary_result', StableHlo.quaternary_result', StableHlo.reshape_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.unaryIndexed_result_ne', StableHlo.binaryIndexed_result_ne']
set_option maxHeartbeats 2000000 in
theorem head_arg3 (M : Valuation τ sig (Elt Ideal)) :
    after opsHead M (Proc.devRef .tc main_arg3) = M (Proc.devRef .tc main_arg3) := by
  simp (disch := decide) only [StableHlo.after_cons, StableHlo.after_nil,
      StableHlo.nullary_result', StableHlo.unary_result', StableHlo.binary_result', StableHlo.ternary_result', StableHlo.quaternary_result', StableHlo.reshape_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.unaryIndexed_result_ne', StableHlo.binaryIndexed_result_ne']

/-! ## The two results -/

theorem res_loss (M : Valuation τ sig (Elt Ideal)) :
    after ops M (Proc.devRef .tc main_v24)
      = Cert.KernelIdeal.Hand.tailLoss (M (Proc.devRef .tc main_arg2)) (M (Proc.devRef .tc main_arg3))
          (shapeCast S_ (M (Proc.devRef .tc main_arg4)) shapeCasts_S1_S_)
          (val_main_v9 (F := Ideal) (M (Proc.devRef .tc main_arg0)) (M (Proc.devRef .tc main_arg1))) := by
  rw [ops_split, Cert.LibHostLine.after_append, tail_loss_R, head_q, head_mu, head_arg2, head_arg3]

theorem res_lam (M : Valuation τ sig (Elt Ideal)) :
    after ops M (Proc.devRef .tc main_v33)
      = Cert.KernelIdeal.Hand.tailLam (M (Proc.devRef .tc main_arg2)) (M (Proc.devRef .tc main_arg3))
          (shapeCast S_ (M (Proc.devRef .tc main_arg4)) shapeCasts_S1_S_)
          (val_main_v9 (F := Ideal) (M (Proc.devRef .tc main_arg0)) (M (Proc.devRef .tc main_arg1))) := by
  rw [ops_split, Cert.LibHostLine.after_append, tail_lam_R, head_q, head_mu, head_arg2, head_arg3]

/-! ## No operation writes an argument -/

set_option maxHeartbeats 2000000 in
theorem kept_arg0 (M : Valuation τ sig (Elt F)) : after ops M (Proc.devRef .tc main_arg0) = M (Proc.devRef .tc main_arg0) := by
  simp (disch := decide) only [StableHlo.after_cons, StableHlo.after_nil,
      StableHlo.nullary_result', StableHlo.unary_result', StableHlo.binary_result', StableHlo.ternary_result', StableHlo.quaternary_result', StableHlo.reshape_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.unaryIndexed_result_ne', StableHlo.binaryIndexed_result_ne']
set_option maxHeartbeats 2000000 in
theorem kept_arg1 (M : Valuation τ sig (Elt F)) : after ops M (Proc.devRef .tc main_arg1) = M (Proc.devRef .tc main_arg1) := by
  simp (disch := decide) only [StableHlo.after_cons, StableHlo.after_nil,
      StableHlo.nullary_result', StableHlo.unary_result', StableHlo.binary_result', StableHlo.ternary_result', StableHlo.quaternary_result', StableHlo.reshape_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.unaryIndexed_result_ne', StableHlo.binaryIndexed_result_ne']
set_option maxHeartbeats 2000000 in
theorem kept_arg2 (M : Valuation τ sig (Elt F)) : after ops M (Proc.devRef .tc main_arg2) = M (Proc.devRef .tc main_arg2) := by
  simp (disch := decide) only [StableHlo.after_cons, StableHlo.after_nil,
      StableHlo.nullary_result', StableHlo.unary_result', StableHlo.binary_result', StableHlo.ternary_result', StableHlo.quaternary_result', StableHlo.reshape_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.unaryIndexed_result_ne', StableHlo.binaryIndexed_result_ne']
set_option maxHeartbeats 2000000 in
theorem kept_arg3 (M : Valuation τ sig (Elt F)) : after ops M (Proc.devRef .tc main_arg3) = M (Proc.devRef .tc main_arg3) := by
  simp (disch := decide) only [StableHlo.after_cons, StableHlo.after_nil,
      StableHlo.nullary_result', StableHlo.unary_result', StableHlo.binary_result', StableHlo.ternary_result', StableHlo.quaternary_result', StableHlo.reshape_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.unaryIndexed_result_ne', StableHlo.binaryIndexed_result_ne']
set_option maxHeartbeats 2000000 in
theorem kept_arg4 (M : Valuation τ sig (Elt F)) : after ops M (Proc.devRef .tc main_arg4) = M (Proc.devRef .tc main_arg4) := by
  simp (disch := decide) only [StableHlo.after_cons, StableHlo.after_nil,
      StableHlo.nullary_result', StableHlo.unary_result', StableHlo.binary_result', StableHlo.ternary_result', StableHlo.quaternary_result', StableHlo.reshape_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.unaryIndexed_result_ne', StableHlo.binaryIndexed_result_ne']

/-! ## The margin sums, entry by entry -/

/-- Entry `i` of the row sums is the margin sum of positive `i` against all the negatives. -/
theorem q_apply (a0 : FVec Ideal S4096 .f32) (a1 : FVec Ideal S8192 .f32) (i : Fin 4096) :
    val_main_v9 (F := Ideal) a0 a1 (ix1 i) = q (fun j => a1 (ix1 j)) (a0 (ix1 i)) := by
  rw [val_main_v9_apply]
  have h0 : (val_main_cst_0 (F := Ideal)) (Shape.Idx.first h_S_) = 0 := Ideal.ofBits_zero_f32
  rw [h0, zero_add]
  unfold q
  refine Finset.sum_congr rfl fun k _ => ?_
  rw [val_main_v8_apply, val_main_v7_apply, val_main_v5_apply, val_main_v3_apply, val_main_v1_apply, val_main_v4_apply,
    val_main_v2_apply, val_main_v6_apply, val_main_cst_apply, val_main_call0_v0_apply, val_main_call0_cst_apply]
  have e1 : idx_main_v1 (idx_main_v3 (idx_main_v9 (ix1 i) k)) = ix1 k :=
    funext fun a => Fin.ext (by match a with | ⟨0, _⟩ => rfl)
  have e0 : idx_main_v2 (idx_main_v4 (idx_main_v9 (ix1 i) k)) = ix1 i :=
    funext fun a => Fin.ext (by match a with | ⟨0, _⟩ => rfl)
  rw [e1, e0]
  rfl

/-! ## The run, read -/

/-- From any memory with zero counters every weakly fair execution of the reference terminates with its two results at the
    tail's functions of the arguments and the margin sums, and the arguments unchanged. -/
theorem run_R (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v33)
          = Cert.KernelIdeal.Hand.tailLam (m ((c.tc : Thread nD τ).loc main_arg2)) (m ((c.tc : Thread nD τ).loc main_arg3))
              (shapeCast S_ (m ((c.tc : Thread nD τ).loc main_arg4)) shapeCasts_S1_S_)
              (val_main_v9 (F := Ideal) (m ((c.tc : Thread nD τ).loc main_arg0)) (m ((c.tc : Thread nD τ).loc main_arg1)))
      ∧ r.2.mem ((c.tc : Thread nD τ).loc main_v24)
          = Cert.KernelIdeal.Hand.tailLoss (m ((c.tc : Thread nD τ).loc main_arg2)) (m ((c.tc : Thread nD τ).loc main_arg3))
              (shapeCast S_ (m ((c.tc : Thread nD τ).loc main_arg4)) shapeCasts_S1_S_)
              (val_main_v9 (F := Ideal) (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
    (h c main_v33).trans (res_lam (launchContents m c)),
    (h c main_v24).trans (res_loss (launchContents m c)),
    (h c main_arg0).trans (kept_arg0 (launchContents m c)),
    (h c main_arg1).trans (kept_arg1 (launchContents m c)),
    (h c main_arg2).trans (kept_arg2 (launchContents m c)),
    (h c main_arg3).trans (kept_arg3 (launchContents m c)),
    (h c main_arg4).trans (kept_arg4 (launchContents m c))⟩)
    (run_after (F := Ideal) m ρ)

end Cert.ReferenceIdeal.Hand

end
-- ==== Proof.lean ====
/-
  Two programs for the same loss and multiplier update, equal over the extended reals.

  Given 4096 positives p_i, 8192 negatives n_j, an index array, multipliers and a scalar mu, both programs form the margin sums
  q_i = sum_j max((n_j - p_i) + 0.1, 0) and then run the same host operations on them: the loss
  ((mu / 2) q_last^2 + lam_last q_last) / 2^25 and the multipliers with mu q scattered-and-added at the indices.

  The reference builds the 4096x8192 matrix of margins and sums each row from zero. The kernel program cuts the positives into
  eight blocks of 512; for each block it keeps a 512x1024 accumulator, cleared first, adds the margins against the negatives
  1024 at a time (eight chunks), and finally sums the accumulator's rows. Its q_i is therefore the sum over lanes l of the sum
  over chunks c of the margin against negative c * 1024 + l: the reference's sum over j regrouped. Addition on the extended
  reals is commutative and associative for all values, infinite ones included, so the two q agree for every input and the
  precondition is never used; the common tail then gives equal results.

  The three frames: each program runs to its end from any launch memory, faults nowhere, and writes no argument array (the
  kernel program's region writes only its own result array and its staging buffers; every host operation writes only its own
  result). The ideal pass rewrote nothing, so the kernel program's idealization is its own text read over the extended reals.
-/
import proofs.«179679_j68685116998321_2_alg».proof.Defs
import proofs.«179679_j68685116998321_2_alg».proof.Proof.Gen.Kernel
import proofs.«179679_j68685116998321_2_alg».proof.Proof.Gen.KernelIdeal
import proofs.«179679_j68685116998321_2_alg».proof.Proof.Gen.ReferenceIdeal
import proofs.«179679_j68685116998321_2_alg».proof.Proof.Gen.Pre_finite_inputs
import proofs.«179679_j68685116998321_2_alg».proof.Proof.KernelFrame
import proofs.«179679_j68685116998321_2_alg».proof.Proof.KernelResults
import proofs.«179679_j68685116998321_2_alg».proof.Proof.RefValue
import Idealize.ShloMosaic.Adequacy
import Idealize.ShloMosaic.Init

noncomputable section

namespace Cert.Proof

open Idealize.ShloMosaic Idealize.SL.Sem

/-- The two programs' margin sums are one vector: entry i of each is the margin sum of positive i against all the negatives. -/
theorem q_bridge (a0 : Cert.KernelIdeal.S4096.Idx → Elt Ideal .f32) (a1 : Cert.KernelIdeal.S8192.Idx → Elt Ideal .f32) :
    Cert.KernelIdeal.Hand.qVec a0 a1 = Cert.ReferenceIdeal.ReadP.val_main_v9 (F := Ideal) a0 a1 := by
  funext j
  obtain ⟨i, rfl⟩ : ∃ i : Fin 4096, j = ValueIdx.ix1 i := ⟨j 0, funext fun a => by match a with | ⟨0, _⟩ => rfl⟩
  rw [Cert.KernelIdeal.Hand.qVec_apply]
  exact (Cert.ReferenceIdeal.Hand.q_apply a0 a1 i).symm

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Hand.run_R m ρ)

theorem preserves : Cert.preserves_Kernel_KernelIdeal := trivial

/-- Both programs end with the tail's two functions of the arguments and of one vector of margin sums. -/
theorem algebraic : Cert.algebraic_KernelIdeal_ReferenceIdeal := by
  intro m ρ m' ρ' _ hagree
  refine ⟨_, _, Cert.KernelIdeal.Hand.run_K m ρ, ?_⟩
  refine (θ_run Cert.ReferenceIdeal.defs _ _).mono (fun _ h c => ⟨?_, ?_, (h c).2.2⟩) (Cert.ReferenceIdeal.Hand.run_R m' ρ')
  · rw [(h c).1, (hagree c).1, (hagree c).2.1, (hagree c).2.2.1, (hagree c).2.2.2.1, (hagree c).2.2.2.2, q_bridge]
  · rw [(h c).2.1, (hagree c).1, (hagree c).2.1, (hagree c).2.2.1, (hagree c).2.2.2.1, (hagree c).2.2.2.2, q_bridge]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
